-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S1600000x128 : Shape := ⟨2, ![1600000, 128]⟩
abbrev S1x64 : Shape := ⟨2, ![1, 64]⟩
abbrev S100000x64 : Shape := ⟨2, ![100000, 64]⟩
abbrev S5000x64 : Shape := ⟨2, ![5000, 64]⟩
abbrev S1600000x64 : Shape := ⟨2, ![1600000, 64]⟩

abbrev nBuf : Space → Nat
  | .hbm => 83
  | .vmem => 44
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000, .f32⟩
  | .hbm, ⟨30, _⟩ => ⟨S100000x1, .f32⟩
  | .hbm, ⟨31, _⟩ => ⟨S1x128, .f32⟩
  | .hbm, ⟨32, _⟩ => ⟨S_, .f32⟩
  | .hbm, ⟨33, _⟩ => ⟨S1x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S100000x128, .f32⟩
  | .hbm, ⟨67, _⟩ => ⟨S1x64, .f32⟩
  | .hbm, ⟨68, _⟩ => ⟨S100000x64, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x64, .f32⟩
  | .hbm, ⟨78, _⟩ => ⟨S_, .f32⟩
  | .hbm, ⟨79, _⟩ => ⟨S100000x64, .f32⟩
  | .hbm, ⟨80, _⟩ => ⟨S1600000x1, .i32⟩
  | .hbm, ⟨81, _⟩ => ⟨S100000x64, .f32⟩
  | .hbm, ⟨82, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S1x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S5000x1, .f32⟩
  | .local _ .vmem, ⟨11, _⟩ => ⟨S5000x1, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x1, .f32⟩
  | .local _ .vmem, ⟨26, _⟩ => ⟨S5000x1, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | .local _ .vmem, ⟨34, _⟩ => ⟨S128x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x1, .f32⟩
  | .local _ .vmem, ⟨40, _⟩ => ⟨S5000x1, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_4 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩
abbrev main_c_8 : Ref sig .tc := ⟨.hbm, 53, rfl⟩
abbrev main_v30 : Ref sig .tc := ⟨.hbm, 54, rfl⟩
abbrev main_v31 : Ref sig .tc := ⟨.hbm, 55, rfl⟩
abbrev main_c_9 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_10 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_11 : Ref sig .tc := ⟨.hbm, 69, rfl⟩
abbrev main_v43 : Ref sig .tc := ⟨.hbm, 70, rfl⟩
abbrev main_v44 : Ref sig .tc := ⟨.hbm, 71, rfl⟩
abbrev main_c_12 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_13 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg3_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem3_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem3_0 : DmaSem sig := 42
abbrev cc5_sem3_1 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  bcast_S_S1x128 : S_.BroadcastsInDim S1x128 (![] : Fin 0 → Fin S1x128.rank)
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S100000x128 : S_.BroadcastsInDim S100000x128 (![] : Fin 0 → Fin S100000x128.rank)
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S64_S1x64 : S64.ShapeCasts S1x64
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v26) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v27) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v40) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v42) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v52) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v12) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v41) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v53) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S_, .f32⟩
  | 17 => ⟨S100000, .f32⟩
  | 18 => ⟨S100000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S_, .f32⟩
  | 25 => ⟨S100000, .f32⟩
  | 26 => ⟨S100000, .f32⟩
  | 27 => ⟨S100000, .f32⟩
  | 28 => ⟨S100000x1, .f32⟩
  | 29 => ⟨S100000x128, .f32⟩
  | 30 => ⟨S100000x128, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x128, .f32⟩
  | 40 => ⟨S_, .f32⟩
  | 41 => ⟨S100000x128, .f32⟩
  | 42 => ⟨S1600000x1, .i32⟩
  | 43 => ⟨S100000x128, .f32⟩
  | 44 => ⟨S100000x128, .f32⟩
  | 45 => ⟨S100000, .f32⟩
  | 46 => ⟨S100000x1, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S_, .f32⟩
  | 56 => ⟨S1600000, .f32⟩
  | 57 => ⟨S_, .f32⟩
  | 58 => ⟨S100000, .f32⟩
  | 59 => ⟨S1600000x1, .i32⟩
  | 60 => ⟨S100000, .f32⟩
  | 61 => ⟨S_, .f32⟩
  | 62 => ⟨S_, .f32⟩
  | 63 => ⟨S100000, .f32⟩
  | 64 => ⟨S100000, .f32⟩
  | 65 => ⟨S_, .f32⟩
  | 66 => ⟨S100000, .f32⟩
  | 67 => ⟨S1600000x1, .i32⟩
  | 68 => ⟨S100000, .f32⟩
  | 69 => ⟨S_, .f32⟩
  | 70 => ⟨S_, .f32⟩
  | 71 => ⟨S100000, .f32⟩
  | 72 => ⟨S100000, .f32⟩
  | 73 => ⟨S100000, .f32⟩
  | 74 => ⟨S100000x1, .f32⟩
  | 75 => ⟨S100000x128, .f32⟩
  | 76 => ⟨S100000x128, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x128, .f32⟩
  | 86 => ⟨S_, .f32⟩
  | 87 => ⟨S100000x128, .f32⟩
  | 88 => ⟨S1600000x1, .i32⟩
  | 89 => ⟨S100000x128, .f32⟩
  | 90 => ⟨S100000x128, .f32⟩
  | 91 => ⟨S100000, .f32⟩
  | 92 => ⟨S100000x1, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S_, .f32⟩
  | 102 => ⟨S1600000, .f32⟩
  | 103 => ⟨S_, .f32⟩
  | 104 => ⟨S100000, .f32⟩
  | 105 => ⟨S1600000x1, .i32⟩
  | 106 => ⟨S100000, .f32⟩
  | 107 => ⟨S_, .f32⟩
  | 108 => ⟨S_, .f32⟩
  | 109 => ⟨S100000, .f32⟩
  | 110 => ⟨S100000, .f32⟩
  | 111 => ⟨S_, .f32⟩
  | 112 => ⟨S100000, .f32⟩
  | 113 => ⟨S1600000x1, .i32⟩
  | 114 => ⟨S100000, .f32⟩
  | 115 => ⟨S_, .f32⟩
  | 116 => ⟨S_, .f32⟩
  | 117 => ⟨S100000, .f32⟩
  | 118 => ⟨S100000, .f32⟩
  | 119 => ⟨S100000, .f32⟩
  | 120 => ⟨S100000x1, .f32⟩
  | 121 => ⟨S100000x128, .f32⟩
  | 122 => ⟨S100000x128, .f32⟩
  | 123 => ⟨S100000x64, .f32⟩
  | 124 => ⟨S_, .i32⟩
  | 125 => ⟨S1600000, .i32⟩
  | 126 => ⟨S1600000, .i1⟩
  | 127 => ⟨S_, .i32⟩
  | _ => ⟨S100000x128, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x64, .f32⟩
  | 5 => ⟨S_, .f32⟩
  | 6 => ⟨S100000x64, .f32⟩
  | 7 => ⟨S1600000x1, .i32⟩
  | 8 => ⟨S100000x64, .f32⟩
  | 9 => ⟨S100000, .f32⟩
  | 10 => ⟨S100000x1, .f32⟩
  | 11 => ⟨S100000x64, .f32⟩
  | 12 => ⟨S100000x64, .f32⟩
  | 13 => ⟨S1x64, .f32⟩
  | 14 => ⟨S100000x64, .f32⟩
  | 15 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_cst : Ref sig .tc := ⟨.hbm, 52, rfl⟩
abbrev main_call2_v0 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_8 : Ref sig .tc := ⟨.hbm, 61, rfl⟩
abbrev main_call3_v0 : Ref sig .tc := ⟨.hbm, 62, rfl⟩
abbrev main_call3_v1 : Ref sig .tc := ⟨.hbm, 63, rfl⟩
abbrev main_v36 : Ref sig .tc := ⟨.hbm, 64, rfl⟩
abbrev main_cst_9 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_10 : Ref sig .tc := ⟨.hbm, 69, rfl⟩
abbrev main_call4_v0 : Ref sig .tc := ⟨.hbm, 70, rfl⟩
abbrev main_call4_v1 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_c_11 : Ref sig .tc := ⟨.hbm, 77, rfl⟩
abbrev main_v45 : Ref sig .tc := ⟨.hbm, 78, rfl⟩
abbrev main_v46 : Ref sig .tc := ⟨.hbm, 79, rfl⟩
abbrev main_c_12 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_13 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_call5_cst : Ref sig .tc := ⟨.hbm, 98, rfl⟩
abbrev main_call5_v0 : Ref sig .tc := ⟨.hbm, 99, rfl⟩
abbrev main_v63 : Ref sig .tc := ⟨.hbm, 100, rfl⟩
abbrev main_cst_14 : Ref sig .tc := ⟨.hbm, 101, rfl⟩
abbrev main_v64 : Ref sig .tc := ⟨.hbm, 102, rfl⟩
abbrev main_cst_15 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_16 : Ref sig .tc := ⟨.hbm, 107, rfl⟩
abbrev main_call6_v0 : Ref sig .tc := ⟨.hbm, 108, rfl⟩
abbrev main_call6_v1 : Ref sig .tc := ⟨.hbm, 109, rfl⟩
abbrev main_v68 : Ref sig .tc := ⟨.hbm, 110, rfl⟩
abbrev main_cst_17 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_18 : Ref sig .tc := ⟨.hbm, 115, rfl⟩
abbrev main_call7_v0 : Ref sig .tc := ⟨.hbm, 116, rfl⟩
abbrev main_call7_v1 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_c_19 : Ref sig .tc := ⟨.hbm, 124, rfl⟩
abbrev main_v78 : Ref sig .tc := ⟨.hbm, 125, rfl⟩
abbrev main_v79 : Ref sig .tc := ⟨.hbm, 126, rfl⟩
abbrev main_c_20 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_21 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Result.lean ====
/-
  The program's run with its result named, at any reading of floats: every weakly fair execution of the six launches and the host
  lines between them terminates without a fault, leaves the result buffer at what the last launch's write-backs fold
  to (the contents of the last segment boundary at that buffer), and leaves the nine arguments as launched.
-/
import proofs.«110976_j79817672229553_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the sixteen segments, the last thread state read against the final state at the result buffer and
    at each argument. -/
theorem run_result : θ_run defs (onTc (τ := τ) (main (F := F))) ⟨m, fun _ => 0, ρ⟩ (fun r => ∀ c : Dev nD,
      r.2.mem ((c.tc : Thread nD τ).loc main_v53) = W16 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v53 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c)⟩)

end Cert.KernelIdeal.Result

end
-- ==== Proof.LibKeepdims.lean ====
/-
  Layout operations of a row reduction kept as a column, read at an index given by coordinates.

  A reduction over the columns of an [a, b] array gives an [a] vector. Keeping the reduced axis makes it an [a, 1]
  column (a shape cast on the kernel's side, a broadcast along the axes [0] on the host's), and the column is then
  spread over the b columns (a broadcast [a, 1] → [a, b]). Read at (p, c) the spread column is the vector at p.
-/
import Idealize.ShloMosaic.Lib.ValueLayout

namespace Cert.Lib.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: an `[a]` array broadcast along the axes `[0]` to `[a, 1]`. -/
theorem broadcastInDim_a_a1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's form of the second: an `[a, 1]` column broadcast along the axes `[0, 1]` to `[a, b]`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibDenseStages.lean ====
/-
  The four dense stages of a three-layer graph convolution, as whole-array functions at exact (extended real)
  values, each read at one entry.

  With d a per-row scale (one entry per row), W a weight matrix and b a bias (one entry per column):
    scaleH x d      entry (P, q) = x[P, q] · d[P]                                  rows scaled
    postH a W d b   entry (P, q) = max((Σ_k a[P, k] · W[k, q]) · d[P] + b[q], 0)    product, rows scaled, bias, rectifier
    preH x d W      entry (P, q) = Σ_k (x[P, k] · d[P]) · W[k, q]                   rows scaled, then the product
    finH a d b      entry (P, q) = a[P, q] · d[P] + b[q]                            rows scaled, bias
  The scale is spread over a row by two broadcasts ([N] → [N, 1] → [N, C]) and the bias down the rows by two
  ([C] → [1, C] → [N, C]); the rectifier is a maximum with a zero spread over the array.
-/
import Idealize.ShloMosaic.PureOps.Ideal.Laws
import Idealize.ShloMosaic.Lib.ValueIdx
import Idealize.ShloMosaic.Lib.ValueLayout
import Idealize.ShloMosaic.Lib.Pipeline.Value
import proofs.«110976_j79817672229553_1_alg».proof.Proof.LibKeepdims
import proofs.«110976_j79817672229553_1_alg».proof.Proof.LibLreluRows
import proofs.«110976_j79817672229553_1_alg».proof.Proof.LibPlainContract

noncomputable section

namespace Cert.GraphConv

open Idealize.ShloMosaic Idealize.ShloMosaic.ValueIdx

variable {N C K : ℕ}

/-- A per-row scale spread over the columns: [N] → [N, 1] → [N, C]. -/
def spreadRows (h0 : (⟨1, ![N]⟩ : Shape).BroadcastsInDim ⟨2, ![N, 1]⟩ (![0] : Fin 1 → Fin (⟨2, ![N, 1]⟩ : Shape).rank))
    (h01 : (⟨2, ![N, 1]⟩ : Shape).BroadcastsInDim ⟨2, ![N, C]⟩ (![0, 1] : Fin 2 → Fin (⟨2, ![N, C]⟩ : Shape).rank))
    (d : FVec Ideal ⟨1, ![N]⟩ .f32) : FVec Ideal ⟨2, ![N, C]⟩ .f32 :=
  broadcastInDim ⟨2, ![N, C]⟩ ![0, 1] h01 (broadcastInDim ⟨2, ![N, 1]⟩ ![0] h0 d)

theorem spreadRows_apply (h0 : (⟨1, ![N]⟩ : Shape).BroadcastsInDim ⟨2, ![N, 1]⟩ (![0] : Fin 1 → Fin (⟨2, ![N, 1]⟩ : Shape).rank))
    (h01 : (⟨2, ![N, 1]⟩ : Shape).BroadcastsInDim ⟨2, ![N, C]⟩ (![0, 1] : Fin 2 → Fin (⟨2, ![N, C]⟩ : Shape).rank))
    (d : FVec Ideal ⟨1, ![N]⟩ .f32) (P : Fin N) (q : Fin C) : spreadRows h0 h01 d (ix2 P q) = d (ix1 P) := by
  unfold spreadRows
  rw [Cert.Lib.Keepdims.broadcastInDim_a1_ab_apply, Cert.Lib.Keepdims.broadcastInDim_a_a1_apply]

/-- A bias spread down the rows: [C] → [1, C] → [N, C]. -/
def spreadCols (h1 : (⟨1, ![C]⟩ : Shape).BroadcastsInDim ⟨2, ![1, C]⟩ ![1])
    (h2 : (⟨2, ![1, C]⟩ : Shape).BroadcastsInDim ⟨2, ![N, C]⟩ ![0, 1])
    (b : FVec Ideal ⟨1, ![C]⟩ .f32) : FVec Ideal ⟨2, ![N, C]⟩ .f32 :=
  broadcastInDim ⟨2, ![N, C]⟩ ![0, 1] h2 (broadcastInDim ⟨2, ![1, C]⟩ ![1] h1 b)

theorem spreadCols_apply (h1 : (⟨1, ![C]⟩ : Shape).BroadcastsInDim ⟨2, ![1, C]⟩ ![1])
    (h2 : (⟨2, ![1, C]⟩ : Shape).BroadcastsInDim ⟨2, ![N, C]⟩ ![0, 1])
    (b : FVec Ideal ⟨1, ![C]⟩ .f32) (P : Fin N) (q : Fin C) : spreadCols h1 h2 b (ix2 P q) = b (ix1 q) := by
  unfold spreadCols
  exact Cert.LibLreluRows.biasRows_apply h1 h2 b P q

/-- Rows scaled: entry (P, q) is x[P, q] · d[P]. -/
theorem scale_apply (x s : FVec Ideal ⟨2, ![N, C]⟩ .f32) (i : (⟨2, ![N, C]⟩ : Shape).Idx) :
    mulf x s i = x i * s i := rfl

theorem add_apply (x s : FVec Ideal ⟨2, ![N, C]⟩ .f32) (i : (⟨2, ![N, C]⟩ : Shape).Idx) :
    addf x s i = x i + s i := rfl

theorem max_apply (x s : FVec Ideal ⟨2, ![N, C]⟩ .f32) (i : (⟨2, ![N, C]⟩ : Shape).Idx) :
    maximumf x s i = max (x i) (s i) := rfl

/-- The zero word is the real zero. -/
theorem zero_word : Ideal.ofBits .f32 0x00000000#32 = (0 : EReal) := Ideal.ofBits_zero_f32

/-- A rank-0 zero spread over any array reads zero everywhere. -/
theorem zeros_apply {s : Shape} (h : (⟨0, ![]⟩ : Shape).BroadcastsInDim s ![]) (i : s.Idx) :
    broadcastInDim s ![] h (constant (F := Ideal) ⟨0, ![]⟩ .f32 0x00000000#32) i = (0 : EReal) := by
  show Ideal.ofBits .f32 0x00000000#32 = 0
  exact zero_word

/-- The product of an [N, K] array with a [K, C] weight matrix. -/
def denseH (A : FVec Ideal ⟨2, ![N, K]⟩ .f32) (W : FVec Ideal ⟨2, ![K, C]⟩ .f32) : FVec Ideal ⟨2, ![N, C]⟩ .f32 :=
  Host.dotGeneral (DotDims.plain N K C) none A W

/-- Its entry (P, q) is the sum over k of A[P, k] · W[k, q]. -/
theorem denseH_apply (A : FVec Ideal ⟨2, ![N, K]⟩ .f32) (W : FVec Ideal ⟨2, ![K, C]⟩ .f32) (P : Fin N) (q : Fin C) :
    denseH A W (ix2 P q) = ∑ k : Fin K, A (ix2 P k) * W (ix2 k q) := by
  unfold denseH
  simp only [Host.dotGeneral]
  exact Cert.LibPlainContract.dotGeneral_plain_apply N K C none _ A W P q

end Cert.GraphConv

end
-- ==== Proof.Terms.lean ====
/-
  The host lines of the program that sit between its launches, as functions of whole arrays at exact
  (extended real) values: the degree scale of an edge-endpoint list (a count of the edges at each node, clamped below
  at one, then the reciprocal square root), the gather of rows at the source endpoints followed by the scatter-add
  into the destination endpoints (for 128 and for 64 columns), and the dense stage that follows an aggregation.
-/
import proofs.«110976_j79817672229553_1_alg».proof.Proof.Gen.KernelIdeal
import proofs.«110976_j79817672229553_1_alg».proof.Proof.LibDenseStages

noncomputable section

namespace Cert.KernelIdeal.Terms

open Cert.KernelIdeal Cert.KernelIdeal.Gen Cert.GraphConv Idealize.ShloMosaic

/-- The list of one endpoint per edge. -/
abbrev Ends := (⟨S1600000, .i32⟩ : BufTy).Contents (Elt Ideal)

/-- One over the square root of the number of edges at each node, the count clamped below at one. -/
def deg (e : Ends) : FVec Ideal S100000 .f32 :=
  Host.rsqrt (maximumf (broadcastInDim S100000 ![] bcast_S_S100000 (id (constant S_ .f32 0x3F800000#32)))
    (Host.scatterAdd scatter_S100000_S1600000x1_S1600000_n_0_0_1 (broadcastInDim S100000 ![] bcast_S_S100000 (constant S_ .f32 0x00000000#32))
      (broadcastInDim S1600000x1 ![0] bcast_S1600000_S1600000x1_0 e) (broadcastInDim S1600000 ![] bcast_S_S1600000 (constant S_ .f32 0x3F800000#32))))

/-- The source endpoints as gather start indices: a negative one is shifted up by the number of nodes. -/
def starts (src : Ends) : (⟨S1600000x1, .i32⟩ : BufTy).Contents (Elt Ideal) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Rows gathered at the sources and added into the destinations, 128 columns. -/
def agg128 (x : FVec Ideal S100000x128 .f32) (src dst : Ends) : FVec Ideal S100000x128 .f32 :=
  Host.scatterAdd scatter_S100000x128_S1600000x1_S1600000x128_1_0_0_1 (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 x (starts src))

/-- Rows gathered at the sources and added into the destinations, 64 columns. -/
def agg64 (x : FVec Ideal S100000x64 .f32) (src dst : Ends) : FVec Ideal S100000x64 .f32 :=
  Host.scatterAdd scatter_S100000x64_S1600000x1_S1600000x64_1_0_0_1 (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 x (starts src))

theorem h0 : S100000.BroadcastsInDim S100000x1 (![0] : Fin 1 → Fin S100000x1.rank) := by decide
theorem h01 : S100000x1.BroadcastsInDim S100000x128 (![0, 1] : Fin 2 → Fin S100000x128.rank) := by decide
theorem h01' : S100000x1.BroadcastsInDim S100000x64 (![0, 1] : Fin 2 → Fin S100000x64.rank) := by decide
theorem h1 : S128.BroadcastsInDim S1x128 (![1] : Fin 1 → Fin S1x128.rank) := by decide
theorem h2 : S1x128.BroadcastsInDim S100000x128 (![0, 1] : Fin 2 → Fin S100000x128.rank) := by decide
theorem h1' : S64.BroadcastsInDim S1x64 (![1] : Fin 1 → Fin S1x64.rank) := by decide
theorem h2' : S1x64.BroadcastsInDim S100000x64 (![0, 1] : Fin 2 → Fin S100000x64.rank) := by decide

/-- The rows of x scaled by d. -/
def scaled (x : FVec Ideal S100000x128 .f32) (d : FVec Ideal S100000 .f32) : FVec Ideal S100000x128 .f32 :=
  mulf x (spreadRows h0 h01 d)

/-- The dense stage after an aggregation: the product with the weights, the rows scaled, the bias, the rectifier. -/
def dense (a : FVec Ideal S100000x128 .f32) (W : FVec Ideal S128x128 .f32) (d : FVec Ideal S100000 .f32) (b : FVec Ideal S128 .f32) :
    FVec Ideal S100000x128 .f32 :=
  maximumf (addf (mulf (denseH a W) (spreadRows h0 h01 d)) (spreadCols h1 h2 b))
    (broadcastInDim S100000x128 ![] bcast_S_S100000x128 (constant (F := Ideal) S_ .f32 0x00000000#32))

/-- The last layer's projection: the rows scaled, then the product with the weights. -/
def proj (x : FVec Ideal S100000x128 .f32) (d : FVec Ideal S100000 .f32) (W : FVec Ideal S128x64 .f32) : FVec Ideal S100000x64 .f32 :=
  denseH (mulf x (spreadRows h0 h01 d)) W

/-- The last layer's closing stage: the rows scaled, the bias. -/
def closing (a : FVec Ideal S100000x64 .f32) (d : FVec Ideal S100000 .f32) (b : FVec Ideal S64 .f32) : FVec Ideal S100000x64 .f32 :=
  addf (mulf a (spreadRows h0 h01' d)) (spreadCols h1' h2' b)

/-- The three layers composed: the program's result as one function of its nine arguments. -/
def net (a0 : FVec Ideal S100000x128 .f32) (a1 a2 : Ends) (a3 : FVec Ideal S128x128 .f32) (a4 : FVec Ideal S128 .f32)
    (a5 : FVec Ideal S128x128 .f32) (a6 : FVec Ideal S128 .f32) (a7 : FVec Ideal S128x64 .f32) (a8 : FVec Ideal S64 .f32) :
    FVec Ideal S100000x64 .f32 :=
  closing (agg64 (proj (dense (agg128 (scaled (dense (agg128 (scaled a0 (deg a1)) a1 a2) a3 (deg a2) a4) (deg a1)) a1 a2) a5 (deg a2) a6) (deg a1) a7) a1 a2)
    (deg a2) a8

end Cert.KernelIdeal.Terms

end
-- ==== Proof.Keep.lean ====
/-
  What the host lines between the launches leave alone, and what the lines before the first launch compute.

  A buffer that no line of a stretch writes holds after the stretch what it held before. Before the first launch the
  host lines compute the two degree scales (cast to columns), the first bias cast to a row and a row of zeros, and
  write no argument.
-/
import proofs.«110976_j79817672229553_1_alg».proof.Proof.Gen.KernelIdeal.Frame
import proofs.«110976_j79817672229553_1_alg».proof.Proof.Terms
import Idealize.ShloMosaic.Lib.StableHlo.Run

noncomputable section

namespace Cert.KernelIdeal.Walk

open Cert.KernelIdeal Cert.KernelIdeal.Gen Cert.KernelIdeal.Terms
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The buffers the lines of this stretch write. -/
abbrev hostOps0_W : List (Ref sig .tc) := [main_cst, main_v0, main_cst_0, main_v1, main_v2, main_v3, main_cst_1]
theorem hostOps0_writes : (hostOps0 : List (HloOp τ sig (Elt Ideal))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer outside that list is unchanged by the stretch. -/
theorem keep1 (r : Ref sig .tc) (h : r ∉ hostOps0_W) : W1 m ρ c (Proc.devRef .tc r) = W0 m ρ c (Proc.devRef .tc r) :=
  StableHlo.after_of_writes_sub hostOps0 _ hostOps0_writes h

/-- The buffers the lines of this stretch write. -/
abbrev hostOps0_1_W : List (Ref sig .tc) := [main_call0_v0, main_call0_v1, main_v4]
theorem hostOps0_1_writes : (hostOps0_1 : List (HloOp τ sig (Elt Ideal))).Forall fun op => op.writes ⊆ (hostOps0_1_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer outside that list is unchanged by the stretch. -/
theorem keep2 (r : Ref sig .tc) (h : r ∉ hostOps0_1_W) : W2 m ρ c (Proc.devRef .tc r) = W1 m ρ c (Proc.devRef .tc r) :=
  StableHlo.after_of_writes_sub hostOps0_1 _ hostOps0_1_writes h

/-- The buffers the lines of this stretch write. -/
abbrev hostOps0_2_W : List (Ref sig .tc) := [main_cst_2, main_v5, main_v6, main_v7, main_cst_3]
theorem hostOps0_2_writes : (hostOps0_2 : List (HloOp τ sig (Elt Ideal))).Forall fun op => op.writes ⊆ (hostOps0_2_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer outside that list is unchanged by the stretch. -/
theorem keep3 (r : Ref sig .tc) (h : r ∉ hostOps0_2_W) : W3 m ρ c (Proc.devRef .tc r) = W2 m ρ c (Proc.devRef .tc r) :=
  StableHlo.after_of_writes_sub hostOps0_2 _ hostOps0_2_writes h

/-- The buffers the lines of this stretch write. -/
abbrev hostOps0_3_W : List (Ref sig .tc) := [main_call1_v0, main_call1_v1, main_v8]
theorem hostOps0_3_writes : (hostOps0_3 : List (HloOp τ sig (Elt Ideal))).Forall fun op => op.writes ⊆ (hostOps0_3_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer outside that list is unchanged by the stretch. -/
theorem keep4 (r : Ref sig .tc) (h : r ∉ hostOps0_3_W) : W4 m ρ c (Proc.devRef .tc r) = W3 m ρ c (Proc.devRef .tc r) :=
  StableHlo.after_of_writes_sub hostOps0_3 _ hostOps0_3_writes h

/-- The buffers the lines of this stretch write. -/
abbrev hostOps0_4_W : List (Ref sig .tc) := [main_v9, main_v10, main_v11, main_v12, main_v13, main_cst_4, main_v14]
theorem hostOps0_4_writes : (hostOps0_4 : List (HloOp τ sig (Elt Ideal))).Forall fun op => op.writes ⊆ (hostOps0_4_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer outside that list is unchanged by the stretch. -/
theorem keep5 (r : Ref sig .tc) (h : r ∉ hostOps0_4_W) : W5 m ρ c (Proc.devRef .tc r) = W4 m ρ c (Proc.devRef .tc r) :=
  StableHlo.after_of_writes_sub hostOps0_4 _ hostOps0_4_writes h

/-- The buffers the lines of this stretch write. -/
abbrev hostOps1_W : List (Ref sig .tc) := [main_c, main_v16, main_v17, main_c_5, main_v18, main_v19, main_v20, main_v21, main_v22, main_cst_6, main_v23, main_v24, main_v25]
theorem hostOps1_writes : (hostOps1 : List (HloOp τ sig (Elt Ideal))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer outside that list is unchanged by the stretch. -/
theorem keep7 (r : Ref sig .tc) (h : r ∉ hostOps1_W) : W7 m ρ c (Proc.devRef .tc r) = W6 m ρ c (Proc.devRef .tc r) :=
  StableHlo.after_of_writes_sub hostOps1 _ hostOps1_writes h

/-- The buffers the lines of this stretch write. -/
abbrev hostOps2_W : List (Ref sig .tc) := [main_v27, main_cst_7, main_v28]
theorem hostOps2_writes : (hostOps2 : List (HloOp τ sig (Elt Ideal))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer outside that list is unchanged by the stretch. -/
theorem keep9 (r : Ref sig .tc) (h : r ∉ hostOps2_W) : W9 m ρ c (Proc.devRef .tc r) = W8 m ρ c (Proc.devRef .tc r) :=
  StableHlo.after_of_writes_sub hostOps2 _ hostOps2_writes h

/-- The buffers the lines of this stretch write. -/
abbrev hostOps3_W : List (Ref sig .tc) := [main_c_8, main_v30, main_v31, main_c_9, main_v32, main_v33, main_v34, main_v35, main_v36, main_cst_10, main_v37, main_v38, main_v39]
theorem hostOps3_writes : (hostOps3 : List (HloOp τ sig (Elt Ideal))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer outside that list is unchanged by the stretch. -/
theorem keep11 (r : Ref sig .tc) (h : r ∉ hostOps3_W) : W11 m ρ c (Proc.devRef .tc r) = W10 m ρ c (Proc.devRef .tc r) :=
  StableHlo.after_of_writes_sub hostOps3 _ hostOps3_writes h

/-- The buffers the lines of this stretch write. -/
abbrev hostOps4_W : List (Ref sig .tc) := [main_v41]
theorem hostOps4_writes : (hostOps4 : List (HloOp τ sig (Elt Ideal))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer outside that list is unchanged by the stretch. -/
theorem keep13 (r : Ref sig .tc) (h : r ∉ hostOps4_W) : W13 m ρ c (Proc.devRef .tc r) = W12 m ρ c (Proc.devRef .tc r) :=
  StableHlo.after_of_writes_sub hostOps4 _ hostOps4_writes h

/-- The buffers the lines of this stretch write. -/
abbrev hostOps5_W : List (Ref sig .tc) := [main_c_11, main_v43, main_v44, main_c_12, main_v45, main_v46, main_v47, main_v48, main_v49, main_cst_13, main_v50, main_v51, main_v52]
theorem hostOps5_writes : (hostOps5 : List (HloOp τ sig (Elt Ideal))).Forall fun op => op.writes ⊆ (hostOps5_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer outside that list is unchanged by the stretch. -/
theorem keep15 (r : Ref sig .tc) (h : r ∉ hostOps5_W) : W15 m ρ c (Proc.devRef .tc r) = W14 m ρ c (Proc.devRef .tc r) :=
  StableHlo.after_of_writes_sub hostOps5 _ hostOps5_writes h

/-! ## Before the first launch, one stretch at a time -/

/-- A one for every edge. -/
theorem s1_v0 : W1 m ρ c (Proc.devRef .tc main_v0) = ((broadcastInDim S1600000 ![] bcast_S_S1600000 (constant (F := Ideal) S_ .f32 0x3F800000#32)) : S1600000.Idx → EReal) := by
  show StableHlo.after hostOps0 (W0 m ρ c) (Proc.devRef .tc main_v0) = _
  generalize W0 m ρ c = X
  after_results_simp
  first | done | rfl

/-- The clamp's lower bound. -/
theorem s1_c1 : W1 m ρ c (Proc.devRef .tc main_cst_1) = (constant (F := Ideal) S_ .f32 0x3F800000#32 : S_.Idx → EReal) := by
  show StableHlo.after hostOps0 (W0 m ρ c) (Proc.devRef .tc main_cst_1) = _
  generalize W0 m ρ c = X
  after_results_simp
  first | done | rfl

/-- The number of edges leaving each node. -/
theorem s1_v3 : W1 m ρ c (Proc.devRef .tc main_v3) = (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (W0 m ρ c (Proc.devRef .tc main_arg1))) (broadcastInDim S1600000 ![] bcast_S_S1600000 (constant (F := Ideal) S_ .f32 0x3F800000#32)) : S100000.Idx → EReal) := by
  show StableHlo.after hostOps0 (W0 m ρ c) (Proc.devRef .tc main_v3) = _
  generalize W0 m ρ c = X
  after_results_simp
  first | done | rfl

/-- The out-degree clamped below at one. -/
theorem s2_v4 : W2 m ρ c (Proc.devRef .tc main_v4) = (maximumf (F := Ideal) (φ := .f32) (broadcastInDim S100000 ![] bcast_S_S100000 (id ((W1 m ρ c (Proc.devRef .tc main_cst_1) : S_.Idx → EReal)))) (W1 m ρ c (Proc.devRef .tc main_v3) : S100000.Idx → EReal) : S100000.Idx → EReal) := by
  show StableHlo.after hostOps0_1 (W1 m ρ c) (Proc.devRef .tc main_v4) = _
  generalize W1 m ρ c = X
  after_results_simp
  first | done | rfl

/-- The clamp's lower bound. -/
theorem s3_c3 : W3 m ρ c (Proc.devRef .tc main_cst_3) = (constant (F := Ideal) S_ .f32 0x3F800000#32 : S_.Idx → EReal) := by
  show StableHlo.after hostOps0_2 (W2 m ρ c) (Proc.devRef .tc main_cst_3) = _
  generalize W2 m ρ c = X
  after_results_simp
  first | done | rfl

/-- The number of edges entering each node. -/
theorem s3_v7 : W3 m ρ c (Proc.devRef .tc main_v7) = (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (W2 m ρ c (Proc.devRef .tc main_arg2))) (W2 m ρ c (Proc.devRef .tc main_v0) : S1600000.Idx → EReal) : S100000.Idx → EReal) := by
  show StableHlo.after hostOps0_2 (W2 m ρ c) (Proc.devRef .tc main_v7) = _
  generalize W2 m ρ c = X
  after_results_simp
  first | done | rfl

/-- The in-degree clamped below at one. -/
theorem s4_v8 : W4 m ρ c (Proc.devRef .tc main_v8) = (maximumf (F := Ideal) (φ := .f32) (broadcastInDim S100000 ![] bcast_S_S100000 (id ((W3 m ρ c (Proc.devRef .tc main_cst_3) : S_.Idx → EReal)))) (W3 m ρ c (Proc.devRef .tc main_v7) : S100000.Idx → EReal) : S100000.Idx → EReal) := by
  show StableHlo.after hostOps0_3 (W3 m ρ c) (Proc.devRef .tc main_v8) = _
  generalize W3 m ρ c = X
  after_results_simp
  first | done | rfl

/-- The out-degree scale as a column. -/
theorem s5_v10 : W5 m ρ c (Proc.devRef .tc main_v10) = (shapeCast S100000x1 (Host.rsqrt (F := Ideal) (s := S100000) (φ := .f32) (W4 m ρ c (Proc.devRef .tc main_v4) : S100000.Idx → EReal)) shapeCasts_S100000_S100000x1 : S100000x1.Idx → EReal) := by
  show StableHlo.after hostOps0_4 (W4 m ρ c) (Proc.devRef .tc main_v10) = _
  generalize W4 m ρ c = X
  after_results_simp
  first | done | rfl

/-- The in-degree scale as a column. -/
theorem s5_v12 : W5 m ρ c (Proc.devRef .tc main_v12) = (shapeCast S100000x1 (Host.rsqrt (F := Ideal) (s := S100000) (φ := .f32) (W4 m ρ c (Proc.devRef .tc main_v8) : S100000.Idx → EReal)) shapeCasts_S100000_S100000x1 : S100000x1.Idx → EReal) := by
  show StableHlo.after hostOps0_4 (W4 m ρ c) (Proc.devRef .tc main_v12) = _
  generalize W4 m ρ c = X
  after_results_simp
  first | done | rfl

/-- The first bias as a row. -/
theorem s5_v13 : W5 m ρ c (Proc.devRef .tc main_v13) = (shapeCast S1x128 (W4 m ρ c (Proc.devRef .tc main_arg4) : S128.Idx → EReal) shapeCasts_S128_S1x128 : S1x128.Idx → EReal) := by
  show StableHlo.after hostOps0_4 (W4 m ρ c) (Proc.devRef .tc main_v13) = _
  generalize W4 m ρ c = X
  after_results_simp
  first | done | rfl

/-- A row of zeros. -/
theorem w5_v14 : W5 m ρ c (Proc.devRef .tc main_v14) = (broadcastInDim S1x128 ![] bcast_S_S1x128 (constant (F := Ideal) S_ .f32 0x00000000#32) : S1x128.Idx → EReal) := by
  show StableHlo.after hostOps0_4 (W4 m ρ c) (Proc.devRef .tc main_v14) = _
  generalize W4 m ρ c = X
  after_results_simp
  first | done | rfl

/-! ## Before the first launch, composed -/

theorem w5_arg0 : W5 m ρ c (Proc.devRef .tc main_arg0) = m ((c : Thread nD τ).loc main_arg0) :=
  ((keep5 m ρ c main_arg0 (by decide)).trans ((keep4 m ρ c main_arg0 (by decide)).trans ((keep3 m ρ c main_arg0 (by decide)).trans ((keep2 m ρ c main_arg0 (by decide)).trans (keep1 m ρ c main_arg0 (by decide))))))
theorem w5_arg1 : W5 m ρ c (Proc.devRef .tc main_arg1) = m ((c : Thread nD τ).loc main_arg1) :=
  ((keep5 m ρ c main_arg1 (by decide)).trans ((keep4 m ρ c main_arg1 (by decide)).trans ((keep3 m ρ c main_arg1 (by decide)).trans ((keep2 m ρ c main_arg1 (by decide)).trans (keep1 m ρ c main_arg1 (by decide))))))
theorem w5_arg2 : W5 m ρ c (Proc.devRef .tc main_arg2) = m ((c : Thread nD τ).loc main_arg2) :=
  ((keep5 m ρ c main_arg2 (by decide)).trans ((keep4 m ρ c main_arg2 (by decide)).trans ((keep3 m ρ c main_arg2 (by decide)).trans ((keep2 m ρ c main_arg2 (by decide)).trans (keep1 m ρ c main_arg2 (by decide))))))
theorem w5_arg3 : W5 m ρ c (Proc.devRef .tc main_arg3) = m ((c : Thread nD τ).loc main_arg3) :=
  ((keep5 m ρ c main_arg3 (by decide)).trans ((keep4 m ρ c main_arg3 (by decide)).trans ((keep3 m ρ c main_arg3 (by decide)).trans ((keep2 m ρ c main_arg3 (by decide)).trans (keep1 m ρ c main_arg3 (by decide))))))
theorem w5_arg4 : W5 m ρ c (Proc.devRef .tc main_arg4) = m ((c : Thread nD τ).loc main_arg4) :=
  ((keep5 m ρ c main_arg4 (by decide)).trans ((keep4 m ρ c main_arg4 (by decide)).trans ((keep3 m ρ c main_arg4 (by decide)).trans ((keep2 m ρ c main_arg4 (by decide)).trans (keep1 m ρ c main_arg4 (by decide))))))
theorem w5_arg5 : W5 m ρ c (Proc.devRef .tc main_arg5) = m ((c : Thread nD τ).loc main_arg5) :=
  ((keep5 m ρ c main_arg5 (by decide)).trans ((keep4 m ρ c main_arg5 (by decide)).trans ((keep3 m ρ c main_arg5 (by decide)).trans ((keep2 m ρ c main_arg5 (by decide)).trans (keep1 m ρ c main_arg5 (by decide))))))
theorem w5_arg6 : W5 m ρ c (Proc.devRef .tc main_arg6) = m ((c : Thread nD τ).loc main_arg6) :=
  ((keep5 m ρ c main_arg6 (by decide)).trans ((keep4 m ρ c main_arg6 (by decide)).trans ((keep3 m ρ c main_arg6 (by decide)).trans ((keep2 m ρ c main_arg6 (by decide)).trans (keep1 m ρ c main_arg6 (by decide))))))
theorem w5_arg7 : W5 m ρ c (Proc.devRef .tc main_arg7) = m ((c : Thread nD τ).loc main_arg7) :=
  ((keep5 m ρ c main_arg7 (by decide)).trans ((keep4 m ρ c main_arg7 (by decide)).trans ((keep3 m ρ c main_arg7 (by decide)).trans ((keep2 m ρ c main_arg7 (by decide)).trans (keep1 m ρ c main_arg7 (by decide))))))
theorem w5_arg8 : W5 m ρ c (Proc.devRef .tc main_arg8) = m ((c : Thread nD τ).loc main_arg8) :=
  ((keep5 m ρ c main_arg8 (by decide)).trans ((keep4 m ρ c main_arg8 (by decide)).trans ((keep3 m ρ c main_arg8 (by decide)).trans ((keep2 m ρ c main_arg8 (by decide)).trans (keep1 m ρ c main_arg8 (by decide))))))

/-- The out-degree scale as a column. -/
theorem w5_v10 : W5 m ρ c (Proc.devRef .tc main_v10) = shapeCast S100000x1 (deg (m ((c : Thread nD τ).loc main_arg1))) shapeCasts_S100000_S100000x1 := by
  rw [s5_v10, ((keep4 m ρ c main_v4 (by decide)).trans (keep3 m ρ c main_v4 (by decide))), s2_v4, s1_c1, s1_v3]
  first | done | rfl
/-- The in-degree scale as a column. -/
theorem w5_v12 : W5 m ρ c (Proc.devRef .tc main_v12) = shapeCast S100000x1 (deg (m ((c : Thread nD τ).loc main_arg2))) shapeCasts_S100000_S100000x1 := by
  rw [s5_v12, s4_v8, s3_c3, s3_v7, ((keep2 m ρ c main_arg2 (by decide)).trans (keep1 m ρ c main_arg2 (by decide))), (keep2 m ρ c main_v0 (by decide)), s1_v0]
  first | done | rfl
/-- The first bias as a row. -/
theorem w5_v13 : W5 m ρ c (Proc.devRef .tc main_v13) = shapeCast S1x128 (m ((c : Thread nD τ).loc main_arg4)) shapeCasts_S128_S1x128 := by
  rw [s5_v13, ((keep4 m ρ c main_arg4 (by decide)).trans ((keep3 m ρ c main_arg4 (by decide)).trans ((keep2 m ρ c main_arg4 (by decide)).trans (keep1 m ρ c main_arg4 (by decide)))))]
  first | done | rfl

end Cert.KernelIdeal.Walk

end
-- ==== Proof.Scale0.lean ====
/-
  The first launch scales the rows of the node features: with the scale column the cast of a vector d and the bias
  row all zeros, the array it writes holds x[P, q] · d[P] at every entry (P, q). Each of its twenty grid points
  writes five thousand whole rows, and the twenty row blocks tile the array.
-/
import proofs.«110976_j79817672229553_1_alg».proof.Proof.Gen.KernelIdeal.Frame
import proofs.«110976_j79817672229553_1_alg».proof.Proof.LibDenseStages
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Scale0

open Cert.KernelIdeal Cert.KernelIdeal.Gen Cert.GraphConv

variable (V : (c : Dev nD) → (b : Ref sig .tc) → Buf (Elt Ideal) ((c : Thread nD τ).loc b))

theorem hz : (![0, 0] : Fin 2 → Nat) = fun _ => 0 := funext fun a => by fin_cases a <;> rfl

/-- One entry of what a point stores: the loaded block's entry times the scale column's entry of its row, plus the
    bias row's entry of its column. -/
theorem pay_apply (x0 : Vec Ideal S5000x128 .f32) (x1 : Vec Ideal S5000x1 .f32) (x2 : Vec Ideal S1x128 .f32) (p : Fin 5000) (q : Fin 128) :
    k0_pay1 x0 x1 x2 (ix2 p q) = x0 (ix2 p q) * x1 (ix2 p (0 : Fin 1)) + x2 (ix2 (0 : Fin 1) q) := by
  unfold k0_pay1
  simp only [shapeCast_self]
  show x0 (ix2 p q) * broadcastTo S5000x128 x1 _ (ix2 p q) + broadcastTo S5000x128 x2 _ (ix2 p q) = _
  rw [Cert.Lib.Keepdims.broadcastTo_a1_ab_apply, broadcastTo_1b_ab_apply]

/-- Where each window's block sits at grid point t: the row blocks at block row t, the bias row at the origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of block row t is row t · 5000 + p of the array: the feature window's block at an entry. -/
theorem blk0_apply (c : Dev nD) (t : Fin cfg0.N) (p : Fin 5000) (q : Fin 128) (P : Fin 100000) (hP : P.val = t.val * 5000 + p.val) :
    (iblk0 V c 0 t : Vec Ideal S5000x128 .f32) (ix2 p q) = (V c main_arg0 : S100000x128.Idx → EReal) (ix2 P q) := by
  obtain ⟨e0, e1, -⟩ := idx_facts t
  unfold iblk0
  rw [View.read_apply]
  show (V c main_arg0 : S100000x128.Idx → EReal) _ = _
  refine congrArg _ (funext fun a => Fin.ext ?_)
  match a with
  | ⟨0, _⟩ => show win0_0.index t (0 : Fin 2) * 5000 + 1 * p.val = P.val; rw [e0, hP]; omega
  | ⟨1, _⟩ => show win0_0.index t (1 : Fin 2) * 128 + 1 * q.val = q.val; rw [e1]; omega

/-- The scale window's block at an entry. -/
theorem blk1_apply (c : Dev nD) (t : Fin cfg0.N) (p : Fin 5000) (P : Fin 100000) (hP : P.val = t.val * 5000 + p.val) :
    (iblk0 V c 1 t : Vec Ideal S5000x1 .f32) (ix2 p (0 : Fin 1)) = (V c main_v10 : S100000x1.Idx → EReal) (ix2 P (0 : Fin 1)) := by
  obtain ⟨-, -, e0, e1, -⟩ := idx_facts t
  unfold iblk0
  rw [View.read_apply]
  show (V c main_v10 : S100000x1.Idx → EReal) _ = _
  refine congrArg _ (funext fun a => Fin.ext ?_)
  match a with
  | ⟨0, _⟩ => show win0_1.index t (0 : Fin 2) * 5000 + 1 * p.val = P.val; rw [e0, hP]; omega
  | ⟨1, _⟩ => show win0_1.index t (1 : Fin 2) * 1 + 1 * 0 = 0; rw [e1]

/-- The bias window's one block is the whole bias row. -/
theorem blk2_apply (c : Dev nD) (t : Fin cfg0.N) (q : Fin 128) :
    (iblk0 V c 2 t : Vec Ideal S1x128 .f32) (ix2 (0 : Fin 1) q) = (V c main_v14 : S1x128.Idx → EReal) (ix2 (0 : Fin 1) q) := by
  obtain ⟨-, -, -, -, e0, e1, -⟩ := idx_facts t
  unfold iblk0
  rw [View.read_apply]
  show (V c main_v14 : S1x128.Idx → EReal) _ = _
  refine congrArg _ (funext fun a => Fin.ext ?_)
  match a with
  | ⟨0, _⟩ => show win0_2.index t (0 : Fin 2) * 1 + 1 * 0 = 0; rw [e0]
  | ⟨1, _⟩ => show win0_2.index t (1 : Fin 2) * 128 + 1 * q.val = q.val; rw [e1]; omega

/-- What grid point t writes back is block row t of the scaled features. -/
theorem flushed_eq (c : Dev nD) (d : FVec Ideal S100000 .f32)
    (hS : (V c main_v10 : S100000x1.Idx → EReal) = shapeCast S100000x1 d shapeCasts_S100000_S100000x1)
    (hZ : (V c main_v14 : S1x128.Idx → EReal) = broadcastInDim S1x128 ![] bcast_S_S1x128 (constant (F := Ideal) S_ .f32 0x00000000#32))
    (h0 : S100000.BroadcastsInDim S100000x1 (![0] : Fin 1 → Fin S100000x1.rank))
    (h01 : S100000x1.BroadcastsInDim S100000x128 (![0, 1] : Fin 2 → Fin S100000x128.rank))
    (t : Fin cfg0.N) :
    (dat0 V c).flushed 3 t = ((cfg0.win 3).blk t).view.read (Elt Ideal)
      (mulf (V c main_arg0 : S100000x128.Idx → EReal) (spreadRows h0 h01 d)) := by
  show (cfg0.win 3).cut (grid0.coords t) ((dat0 V c).after 3 t) = _
  rw [after0_3]
  unfold out0_3
  rw [View.canon_unit_zero hz]
  simp only [View.ld_unit_zero (S := S5000x128) hz, View.ld_unit_zero (S := S5000x1) hz, View.ld_unit_zero (S := S1x128) hz]
  funext j
  obtain ⟨p, q, rfl⟩ : ∃ (p : Fin 5000) (q : Fin 128), j = ix2 p q := ⟨j 0, j 1, eq_ix2 j⟩
  have hN : t.val < 20 := Nat.lt_of_lt_of_eq t.isLt N_0
  obtain ⟨-, -, -, -, -, -, e0, e1⟩ := idx_facts t
  have hP : t.val * 5000 + p.val < 100000 := by have := p.isLt; omega
  show k0_pay1 (iblk0 V c 0 t : Vec Ideal S5000x128 .f32) (iblk0 V c 1 t : Vec Ideal S5000x1 .f32) (iblk0 V c 2 t : Vec Ideal S1x128 .f32) (ix2 p q)
      = mulf (V c main_arg0 : S100000x128.Idx → EReal) (spreadRows h0 h01 d) (((cfg0.win 3).blk t).view.emb (ix2 p q))
  rw [pay_apply, blk0_apply V c t p q ⟨_, hP⟩ rfl, blk1_apply V c t p ⟨_, hP⟩ rfl, blk2_apply V c t q, hS, hZ,
    Cert.Lib.Keepdims.shapeCast_a_a1_apply, zeros_apply, add_zero]
  have he : ((cfg0.win 3).blk t).view.emb (ix2 p q) = (ix2 (⟨t.val * 5000 + p.val, hP⟩ : Fin 100000) q : S100000x128.Idx) := by
    funext a; apply Fin.ext
    match a with
    | ⟨0, _⟩ => show win0_3.index t (0 : Fin 2) * 5000 + 1 * p.val = t.val * 5000 + p.val; rw [e0]; omega
    | ⟨1, _⟩ => show win0_3.index t (1 : Fin 2) * 128 + 1 * q.val = q.val; rw [e1]; omega
  rw [he, scale_apply, spreadRows_apply]

/-- An index of the array lies in point t's block exactly when each coordinate lies in the block's range. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v15).slice (win0_3.rect t)).set ↔ _
  rw [View.set_slice_whole, Rect.mem_set_unit]
  exact Iff.rfl

/-- Row P lies in block row P / 5000: the twenty blocks tile the array. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have ht : (i 0).val / 5000 < cfg0.N := by rw [hN]; omega
  refine ⟨⟨(i 0).val / 5000, ht⟩, flush0_3 _, ?_⟩
  rw [mem_blk]
  obtain ⟨-, -, -, -, -, -, e0, e1⟩ := idx_facts ⟨(i 0).val / 5000, ht⟩
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e1]; omega

/-- The array the launch leaves: the features with every row scaled. -/
theorem final (c : Dev nD) (d : FVec Ideal S100000 .f32)
    (hS : (V c main_v10 : S100000x1.Idx → EReal) = shapeCast S100000x1 d shapeCasts_S100000_S100000x1)
    (hZ : (V c main_v14 : S1x128.Idx → EReal) = broadcastInDim S1x128 ![] bcast_S_S1x128 (constant (F := Ideal) S_ .f32 0x00000000#32))
    (h0 : S100000.BroadcastsInDim S100000x1 (![0] : Fin 1 → Fin S100000x1.rank))
    (h01 : S100000x1.BroadcastsInDim S100000x128 (![0, 1] : Fin 2 → Fin S100000x128.rank)) :
    (dat0 V c).arrAt 3 cfg0.N = mulf (V c main_arg0 : S100000x128.Idx → EReal) (spreadRows h0 h01 d) :=
  (dat0 V c).arrAt_eq_of_cover 3 _ (fun t _ => flushed_eq V c d hS hZ h0 h01 t) cover

end Cert.KernelIdeal.Scale0

end
-- ==== Proof.Dense1.lean ====
/-
  The second launch multiplies the aggregated messages by a weight matrix, scales the rows, adds the bias and applies
  the rectifier: with the scale column the cast of a vector d and the bias row the cast of a vector b, the array it
  writes holds max((Σ_k a[P, k] · W[k, q]) · d[P] + b[q], 0) at every entry (P, q). A grid point multiplies five
  thousand whole rows by the whole weight matrix, and the twenty row blocks tile the array.
-/
import proofs.«110976_j79817672229553_1_alg».proof.Proof.Gen.KernelIdeal.Frame
import proofs.«110976_j79817672229553_1_alg».proof.Proof.LibDenseStages
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Dense1

open Cert.KernelIdeal Cert.KernelIdeal.Gen Cert.GraphConv

variable (V : (c : Dev nD) → (b : Ref sig .tc) → Buf (Elt Ideal) ((c : Thread nD τ).loc b))

theorem hz : (![0, 0] : Fin 2 → Nat) = fun _ => 0 := funext fun a => by fin_cases a <;> rfl

/-- One entry of what a point stores: the row of the loaded block against the column of the weights, times the
    scale column's entry of the row, plus the bias row's entry of the column, rectified. -/
theorem pay_apply (x0 : Vec Ideal S5000x128 .f32) (x1 : Vec Ideal S128x128 .f32) (x2 : Vec Ideal S5000x1 .f32) (x3 : Vec Ideal S1x128 .f32) (p : Fin 5000) (q : Fin 128) :
    k1_pay1 x0 x1 x2 x3 (ix2 p q)
      = max ((∑ k : Fin 128, x0 (ix2 p k) * x1 (ix2 k q)) * x2 (ix2 p (0 : Fin 1)) + x3 (ix2 (0 : Fin 1) q)) 0 := by
  unfold k1_pay1
  simp only [shapeCast_self]
  show max (FloatOps.matmul (F := Ideal) (DotDims.plain 5000 128 128) none (truncf .bf16 x0 _) (truncf .bf16 x1 _) (constant ⟨2, ![5000, 128]⟩ .f32 0x00000000#32) (ix2 p q)
      * broadcastTo S5000x128 x2 _ (ix2 p q) + broadcastTo S5000x128 x3 _ (ix2 p q)) (Ideal.ofBits .f32 0x00000000#32) = _
  rw [Cert.LibPlainContract.matmul_plain_apply, Cert.Lib.Keepdims.broadcastTo_a1_ab_apply, broadcastTo_1b_ab_apply, zero_word]
  rfl

/-- Where each window's block sits at grid point t: the row blocks at block row t, the weights and the bias row at
    the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of block row t is row t · 5000 + p of the array: the message window's block at an entry. -/
theorem blk0_apply (c : Dev nD) (t : Fin cfg1.N) (p : Fin 5000) (q : Fin 128) (P : Fin 100000) (hP : P.val = t.val * 5000 + p.val) :
    (iblk1 V c 0 t : Vec Ideal S5000x128 .f32) (ix2 p q) = (V c main_v25 : S100000x128.Idx → EReal) (ix2 P q) := by
  obtain ⟨e0, e1, -⟩ := idx_facts t
  unfold iblk1
  rw [View.read_apply]
  show (V c main_v25 : S100000x128.Idx → EReal) _ = _
  refine congrArg _ (funext fun a => Fin.ext ?_)
  match a with
  | ⟨0, _⟩ => show win1_0.index t (0 : Fin 2) * 5000 + 1 * p.val = P.val; rw [e0, hP]; omega
  | ⟨1, _⟩ => show win1_0.index t (1 : Fin 2) * 128 + 1 * q.val = q.val; rw [e1]; omega

/-- The weight window's one block is the whole matrix. -/
theorem blk1_apply (c : Dev nD) (t : Fin cfg1.N) (k : Fin 128) (q : Fin 128) :
    (iblk1 V c 1 t : Vec Ideal S128x128 .f32) (ix2 k q) = (V c main_arg3 : S128x128.Idx → EReal) (ix2 k q) := by
  obtain ⟨-, -, e0, e1, -⟩ := idx_facts t
  unfold iblk1
  rw [View.read_apply]
  show (V c main_arg3 : S128x128.Idx → EReal) _ = _
  refine congrArg _ (funext fun a => Fin.ext ?_)
  match a with
  | ⟨0, _⟩ => show win1_1.index t (0 : Fin 2) * 128 + 1 * k.val = k.val; rw [e0]; omega
  | ⟨1, _⟩ => show win1_1.index t (1 : Fin 2) * 128 + 1 * q.val = q.val; rw [e1]; omega

/-- The scale window's block at an entry. -/
theorem blk2_apply (c : Dev nD) (t : Fin cfg1.N) (p : Fin 5000) (P : Fin 100000) (hP : P.val = t.val * 5000 + p.val) :
    (iblk1 V c 2 t : Vec Ideal S5000x1 .f32) (ix2 p (0 : Fin 1)) = (V c main_v12 : S100000x1.Idx → EReal) (ix2 P (0 : Fin 1)) := by
  obtain ⟨-, -, -, -, e0, e1, -⟩ := idx_facts t
  unfold iblk1
  rw [View.read_apply]
  show (V c main_v12 : S100000x1.Idx → EReal) _ = _
  refine congrArg _ (funext fun a => Fin.ext ?_)
  match a with
  | ⟨0, _⟩ => show win1_2.index t (0 : Fin 2) * 5000 + 1 * p.val = P.val; rw [e0, hP]; omega
  | ⟨1, _⟩ => show win1_2.index t (1 : Fin 2) * 1 + 1 * 0 = 0; rw [e1]

/-- The bias window's one block is the whole bias row. -/
theorem blk3_apply (c : Dev nD) (t : Fin cfg1.N) (q : Fin 128) :
    (iblk1 V c 3 t : Vec Ideal S1x128 .f32) (ix2 (0 : Fin 1) q) = (V c main_v13 : S1x128.Idx → EReal) (ix2 (0 : Fin 1) q) := by
  obtain ⟨-, -, -, -, -, -, e0, e1, -⟩ := idx_facts t
  unfold iblk1
  rw [View.read_apply]
  show (V c main_v13 : S1x128.Idx → EReal) _ = _
  refine congrArg _ (funext fun a => Fin.ext ?_)
  match a with
  | ⟨0, _⟩ => show win1_3.index t (0 : Fin 2) * 1 + 1 * 0 = 0; rw [e0]
  | ⟨1, _⟩ => show win1_3.index t (1 : Fin 2) * 128 + 1 * q.val = q.val; rw [e1]; omega

/-- The layer's dense stage as one function of whole arrays. -/
abbrev result (c : Dev nD) (d : FVec Ideal S100000 .f32) (b : FVec Ideal S128 .f32)
    (h0 : S100000.BroadcastsInDim S100000x1 (![0] : Fin 1 → Fin S100000x1.rank))
    (h01 : S100000x1.BroadcastsInDim S100000x128 (![0, 1] : Fin 2 → Fin S100000x128.rank))
    (h1 : S128.BroadcastsInDim S1x128 (![1] : Fin 1 → Fin S1x128.rank)) (h2 : S1x128.BroadcastsInDim S100000x128 (![0, 1] : Fin 2 → Fin S100000x128.rank))
    (h3 : S_.BroadcastsInDim S100000x128 (![] : Fin 0 → Fin S100000x128.rank)) : S100000x128.Idx → EReal :=
  maximumf (addf (mulf (denseH (V c main_v25 : S100000x128.Idx → EReal) (V c main_arg3 : S128x128.Idx → EReal)) (spreadRows h0 h01 d)) (spreadCols h1 h2 b))
    (broadcastInDim S100000x128 ![] h3 (constant (F := Ideal) S_ .f32 0x00000000#32))

/-- What grid point t writes back is block row t of the layer's dense stage. -/
theorem flushed_eq (c : Dev nD) (d : FVec Ideal S100000 .f32)
    (hS : (V c main_v12 : S100000x1.Idx → EReal) = shapeCast S100000x1 d shapeCasts_S100000_S100000x1)
    (b : FVec Ideal S128 .f32) (hB : (V c main_v13 : S1x128.Idx → EReal) = shapeCast S1x128 b shapeCasts_S128_S1x128)
    (h0 : S100000.BroadcastsInDim S100000x1 (![0] : Fin 1 → Fin S100000x1.rank))
    (h01 : S100000x1.BroadcastsInDim S100000x128 (![0, 1] : Fin 2 → Fin S100000x128.rank))
    (h1 : S128.BroadcastsInDim S1x128 (![1] : Fin 1 → Fin S1x128.rank)) (h2 : S1x128.BroadcastsInDim S100000x128 (![0, 1] : Fin 2 → Fin S100000x128.rank))
    (h3 : S_.BroadcastsInDim S100000x128 (![] : Fin 0 → Fin S100000x128.rank))
    (t : Fin cfg1.N) :
    (dat1 V c).flushed 4 t = ((cfg1.win 4).blk t).view.read (Elt Ideal) (result V c d b h0 h01 h1 h2 h3) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz, View.ld_unit_zero (S := S128x128) hz]
  funext j
  obtain ⟨p, q, rfl⟩ : ∃ (p : Fin 5000) (q : Fin 128), j = ix2 p q := ⟨j 0, j 1, eq_ix2 j⟩
  have hN : t.val < 20 := Nat.lt_of_lt_of_eq t.isLt N_1
  obtain ⟨-, -, -, -, -, -, -, -, e0, e1⟩ := idx_facts t
  have hP : t.val * 5000 + p.val < 100000 := by have := p.isLt; omega
  show k1_pay1 (iblk1 V c 0 t : Vec Ideal S5000x128 .f32) (iblk1 V c 1 t : Vec Ideal S128x128 .f32) (iblk1 V c 2 t : Vec Ideal S5000x1 .f32) (iblk1 V c 3 t : Vec Ideal S1x128 .f32) (ix2 p q)
      = result V c d b h0 h01 h1 h2 h3 (((cfg1.win 4).blk t).view.emb (ix2 p q))
  have he : ((cfg1.win 4).blk t).view.emb (ix2 p q) = (ix2 (⟨t.val * 5000 + p.val, hP⟩ : Fin 100000) q : S100000x128.Idx) := by
    funext a; apply Fin.ext
    match a with
    | ⟨0, _⟩ => show win1_4.index t (0 : Fin 2) * 5000 + 1 * p.val = t.val * 5000 + p.val; rw [e0]; omega
    | ⟨1, _⟩ => show win1_4.index t (1 : Fin 2) * 128 + 1 * q.val = q.val; rw [e1]; omega
  rw [pay_apply, blk2_apply V c t p ⟨_, hP⟩ rfl, blk3_apply V c t q, hS, hB,
    Cert.Lib.Keepdims.shapeCast_a_a1_apply, Cert.LibLreluRows.rowCast_apply, he]
  unfold result
  rw [max_apply, add_apply, scale_apply, spreadRows_apply, spreadCols_apply, zeros_apply, denseH_apply]
  refine congrArg (fun s => max (s * d (ix1 (⟨t.val * 5000 + p.val, hP⟩ : Fin 100000)) + b (ix1 q)) 0) (Finset.sum_congr rfl fun k _ => ?_)
  rw [blk0_apply V c t p k ⟨_, hP⟩ rfl, blk1_apply V c t k q]

/-- An index of the array lies in point t's block exactly when each coordinate lies in the block's range. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v26).slice (win1_4.rect t)).set ↔ _
  rw [View.set_slice_whole, Rect.mem_set_unit]
  exact Iff.rfl

/-- Row P lies in block row P / 5000: the twenty blocks tile the array. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  have ht : (i 0).val / 5000 < cfg1.N := by rw [hN]; omega
  refine ⟨⟨(i 0).val / 5000, ht⟩, flush1_4 _, ?_⟩
  rw [mem_blk]
  obtain ⟨-, -, -, -, -, -, -, -, e0, e1⟩ := idx_facts ⟨(i 0).val / 5000, ht⟩
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val ∧ (i 1).val < win1_4.index ⟨(i 0).val / 5000, ht⟩ (1 : Fin 2) * 128 + 128
    rw [e1]; omega

/-- The array the launch leaves: the layer's dense stage of the arrays it was entered with. -/
theorem final (c : Dev nD) (d : FVec Ideal S100000 .f32)
    (hS : (V c main_v12 : S100000x1.Idx → EReal) = shapeCast S100000x1 d shapeCasts_S100000_S100000x1)
    (b : FVec Ideal S128 .f32) (hB : (V c main_v13 : S1x128.Idx → EReal) = shapeCast S1x128 b shapeCasts_S128_S1x128)
    (h0 : S100000.BroadcastsInDim S100000x1 (![0] : Fin 1 → Fin S100000x1.rank))
    (h01 : S100000x1.BroadcastsInDim S100000x128 (![0, 1] : Fin 2 → Fin S100000x128.rank))
    (h1 : S128.BroadcastsInDim S1x128 (![1] : Fin 1 → Fin S1x128.rank)) (h2 : S1x128.BroadcastsInDim S100000x128 (![0, 1] : Fin 2 → Fin S100000x128.rank))
    (h3 : S_.BroadcastsInDim S100000x128 (![] : Fin 0 → Fin S100000x128.rank)) :
    (dat1 V c).arrAt 4 cfg1.N = result V c d b h0 h01 h1 h2 h3 :=
  (dat1 V c).arrAt_eq_of_cover 4 _ (fun t _ => flushed_eq V c d hS b hB h0 h01 h1 h2 h3 t) cover

end Cert.KernelIdeal.Dense1

end
-- ==== Proof.Scale2.lean ====
/-
  The third launch scales the rows of the first layer's output: with the scale column the cast of a vector d and the bias
  row all zeros, the array it writes holds x[P, q] · d[P] at every entry (P, q). Each of its twenty grid points
  writes five thousand whole rows, and the twenty row blocks tile the array.
-/
import proofs.«110976_j79817672229553_1_alg».proof.Proof.Gen.KernelIdeal.Frame
import proofs.«110976_j79817672229553_1_alg».proof.Proof.LibDenseStages
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Scale2

open Cert.KernelIdeal Cert.KernelIdeal.Gen Cert.GraphConv

variable (V : (c : Dev nD) → (b : Ref sig .tc) → Buf (Elt Ideal) ((c : Thread nD τ).loc b))

theorem hz : (![0, 0] : Fin 2 → Nat) = fun _ => 0 := funext fun a => by fin_cases a <;> rfl

/-- One entry of what a point stores: the loaded block's entry times the scale column's entry of its row, plus the
    bias row's entry of its column. -/
theorem pay_apply (x0 : Vec Ideal S5000x128 .f32) (x1 : Vec Ideal S5000x1 .f32) (x2 : Vec Ideal S1x128 .f32) (p : Fin 5000) (q : Fin 128) :
    k2_pay1 x0 x1 x2 (ix2 p q) = x0 (ix2 p q) * x1 (ix2 p (0 : Fin 1)) + x2 (ix2 (0 : Fin 1) q) := by
  unfold k2_pay1
  simp only [shapeCast_self]
  show x0 (ix2 p q) * broadcastTo S5000x128 x1 _ (ix2 p q) + broadcastTo S5000x128 x2 _ (ix2 p q) = _
  rw [Cert.Lib.Keepdims.broadcastTo_a1_ab_apply, broadcastTo_1b_ab_apply]

/-- Where each window's block sits at grid point t: the row blocks at block row t, the bias row at the origin. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of block row t is row t · 5000 + p of the array: the feature window's block at an entry. -/
theorem blk0_apply (c : Dev nD) (t : Fin cfg2.N) (p : Fin 5000) (q : Fin 128) (P : Fin 100000) (hP : P.val = t.val * 5000 + p.val) :
    (iblk2 V c 0 t : Vec Ideal S5000x128 .f32) (ix2 p q) = (V c main_v26 : S100000x128.Idx → EReal) (ix2 P q) := by
  obtain ⟨e0, e1, -⟩ := idx_facts t
  unfold iblk2
  rw [View.read_apply]
  show (V c main_v26 : S100000x128.Idx → EReal) _ = _
  refine congrArg _ (funext fun a => Fin.ext ?_)
  match a with
  | ⟨0, _⟩ => show win2_0.index t (0 : Fin 2) * 5000 + 1 * p.val = P.val; rw [e0, hP]; omega
  | ⟨1, _⟩ => show win2_0.index t (1 : Fin 2) * 128 + 1 * q.val = q.val; rw [e1]; omega

/-- The scale window's block at an entry. -/
theorem blk1_apply (c : Dev nD) (t : Fin cfg2.N) (p : Fin 5000) (P : Fin 100000) (hP : P.val = t.val * 5000 + p.val) :
    (iblk2 V c 1 t : Vec Ideal S5000x1 .f32) (ix2 p (0 : Fin 1)) = (V c main_v10 : S100000x1.Idx → EReal) (ix2 P (0 : Fin 1)) := by
  obtain ⟨-, -, e0, e1, -⟩ := idx_facts t
  unfold iblk2
  rw [View.read_apply]
  show (V c main_v10 : S100000x1.Idx → EReal) _ = _
  refine congrArg _ (funext fun a => Fin.ext ?_)
  match a with
  | ⟨0, _⟩ => show win2_1.index t (0 : Fin 2) * 5000 + 1 * p.val = P.val; rw [e0, hP]; omega
  | ⟨1, _⟩ => show win2_1.index t (1 : Fin 2) * 1 + 1 * 0 = 0; rw [e1]

/-- The bias window's one block is the whole bias row. -/
theorem blk2_apply (c : Dev nD) (t : Fin cfg2.N) (q : Fin 128) :
    (iblk2 V c 2 t : Vec Ideal S1x128 .f32) (ix2 (0 : Fin 1) q) = (V c main_v28 : S1x128.Idx → EReal) (ix2 (0 : Fin 1) q) := by
  obtain ⟨-, -, -, -, e0, e1, -⟩ := idx_facts t
  unfold iblk2
  rw [View.read_apply]
  show (V c main_v28 : S1x128.Idx → EReal) _ = _
  refine congrArg _ (funext fun a => Fin.ext ?_)
  match a with
  | ⟨0, _⟩ => show win2_2.index t (0 : Fin 2) * 1 + 1 * 0 = 0; rw [e0]
  | ⟨1, _⟩ => show win2_2.index t (1 : Fin 2) * 128 + 1 * q.val = q.val; rw [e1]; omega

/-- What grid point t writes back is block row t of the scaled features. -/
theorem flushed_eq (c : Dev nD) (d : FVec Ideal S100000 .f32)
    (hS : (V c main_v10 : S100000x1.Idx → EReal) = shapeCast S100000x1 d shapeCasts_S100000_S100000x1)
    (hZ : (V c main_v28 : S1x128.Idx → EReal) = broadcastInDim S1x128 ![] bcast_S_S1x128 (constant (F := Ideal) S_ .f32 0x00000000#32))
    (h0 : S100000.BroadcastsInDim S100000x1 (![0] : Fin 1 → Fin S100000x1.rank))
    (h01 : S100000x1.BroadcastsInDim S100000x128 (![0, 1] : Fin 2 → Fin S100000x128.rank))
    (t : Fin cfg2.N) :
    (dat2 V c).flushed 3 t = ((cfg2.win 3).blk t).view.read (Elt Ideal)
      (mulf (V c main_v26 : S100000x128.Idx → EReal) (spreadRows h0 h01 d)) := by
  show (cfg2.win 3).cut (grid2.coords t) ((dat2 V c).after 3 t) = _
  rw [after2_3]
  unfold out2_3
  rw [View.canon_unit_zero hz]
  simp only [View.ld_unit_zero (S := S5000x128) hz, View.ld_unit_zero (S := S5000x1) hz, View.ld_unit_zero (S := S1x128) hz]
  funext j
  obtain ⟨p, q, rfl⟩ : ∃ (p : Fin 5000) (q : Fin 128), j = ix2 p q := ⟨j 0, j 1, eq_ix2 j⟩
  have hN : t.val < 20 := Nat.lt_of_lt_of_eq t.isLt N_2
  obtain ⟨-, -, -, -, -, -, e0, e1⟩ := idx_facts t
  have hP : t.val * 5000 + p.val < 100000 := by have := p.isLt; omega
  show k2_pay1 (iblk2 V c 0 t : Vec Ideal S5000x128 .f32) (iblk2 V c 1 t : Vec Ideal S5000x1 .f32) (iblk2 V c 2 t : Vec Ideal S1x128 .f32) (ix2 p q)
      = mulf (V c main_v26 : S100000x128.Idx → EReal) (spreadRows h0 h01 d) (((cfg2.win 3).blk t).view.emb (ix2 p q))
  rw [pay_apply, blk0_apply V c t p q ⟨_, hP⟩ rfl, blk1_apply V c t p ⟨_, hP⟩ rfl, blk2_apply V c t q, hS, hZ,
    Cert.Lib.Keepdims.shapeCast_a_a1_apply, zeros_apply, add_zero]
  have he : ((cfg2.win 3).blk t).view.emb (ix2 p q) = (ix2 (⟨t.val * 5000 + p.val, hP⟩ : Fin 100000) q : S100000x128.Idx) := by
    funext a; apply Fin.ext
    match a with
    | ⟨0, _⟩ => show win2_3.index t (0 : Fin 2) * 5000 + 1 * p.val = t.val * 5000 + p.val; rw [e0]; omega
    | ⟨1, _⟩ => show win2_3.index t (1 : Fin 2) * 128 + 1 * q.val = q.val; rw [e1]; omega
  rw [he, scale_apply, spreadRows_apply]

/-- An index of the array lies in point t's block exactly when each coordinate lies in the block's range. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v29).slice (win2_3.rect t)).set ↔ _
  rw [View.set_slice_whole, Rect.mem_set_unit]
  exact Iff.rfl

/-- Row P lies in block row P / 5000: the twenty blocks tile the array. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  have ht : (i 0).val / 5000 < cfg2.N := by rw [hN]; omega
  refine ⟨⟨(i 0).val / 5000, ht⟩, flush2_3 _, ?_⟩
  rw [mem_blk]
  obtain ⟨-, -, -, -, -, -, e0, e1⟩ := idx_facts ⟨(i 0).val / 5000, ht⟩
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_3.index ⟨(i 0).val / 5000, ht⟩ (1 : Fin 2) * 128 ≤ (i 1).val ∧ (i 1).val < win2_3.index ⟨(i 0).val / 5000, ht⟩ (1 : Fin 2) * 128 + 128
    rw [e1]; omega

/-- The array the launch leaves: the features with every row scaled. -/
theorem final (c : Dev nD) (d : FVec Ideal S100000 .f32)
    (hS : (V c main_v10 : S100000x1.Idx → EReal) = shapeCast S100000x1 d shapeCasts_S100000_S100000x1)
    (hZ : (V c main_v28 : S1x128.Idx → EReal) = broadcastInDim S1x128 ![] bcast_S_S1x128 (constant (F := Ideal) S_ .f32 0x00000000#32))
    (h0 : S100000.BroadcastsInDim S100000x1 (![0] : Fin 1 → Fin S100000x1.rank))
    (h01 : S100000x1.BroadcastsInDim S100000x128 (![0, 1] : Fin 2 → Fin S100000x128.rank)) :
    (dat2 V c).arrAt 3 cfg2.N = mulf (V c main_v26 : S100000x128.Idx → EReal) (spreadRows h0 h01 d) :=
  (dat2 V c).arrAt_eq_of_cover 3 _ (fun t _ => flushed_eq V c d hS hZ h0 h01 t) cover

end Cert.KernelIdeal.Scale2

end
-- ==== Proof.Dense3.lean ====
/-
  The fourth launch multiplies the aggregated messages by a weight matrix, scales the rows, adds the bias and applies
  the rectifier: with the scale column the cast of a vector d and the bias row the cast of a vector b, the array it
  writes holds max((Σ_k a[P, k] · W[k, q]) · d[P] + b[q], 0) at every entry (P, q). A grid point multiplies five
  thousand whole rows by the whole weight matrix, and the twenty row blocks tile the array.
-/
import proofs.«110976_j79817672229553_1_alg».proof.Proof.Gen.KernelIdeal.Frame
import proofs.«110976_j79817672229553_1_alg».proof.Proof.LibDenseStages
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Dense3

open Cert.KernelIdeal Cert.KernelIdeal.Gen Cert.GraphConv

variable (V : (c : Dev nD) → (b : Ref sig .tc) → Buf (Elt Ideal) ((c : Thread nD τ).loc b))

theorem hz : (![0, 0] : Fin 2 → Nat) = fun _ => 0 := funext fun a => by fin_cases a <;> rfl

/-- One entry of what a point stores: the row of the loaded block against the column of the weights, times the
    scale column's entry of the row, plus the bias row's entry of the column, rectified. -/
theorem pay_apply (x0 : Vec Ideal S5000x128 .f32) (x1 : Vec Ideal S128x128 .f32) (x2 : Vec Ideal S5000x1 .f32) (x3 : Vec Ideal S1x128 .f32) (p : Fin 5000) (q : Fin 128) :
    k3_pay1 x0 x1 x2 x3 (ix2 p q)
      = max ((∑ k : Fin 128, x0 (ix2 p k) * x1 (ix2 k q)) * x2 (ix2 p (0 : Fin 1)) + x3 (ix2 (0 : Fin 1) q)) 0 := by
  unfold k3_pay1
  simp only [shapeCast_self]
  show max (FloatOps.matmul (F := Ideal) (DotDims.plain 5000 128 128) none (truncf .bf16 x0 _) (truncf .bf16 x1 _) (constant ⟨2, ![5000, 128]⟩ .f32 0x00000000#32) (ix2 p q)
      * broadcastTo S5000x128 x2 _ (ix2 p q) + broadcastTo S5000x128 x3 _ (ix2 p q)) (Ideal.ofBits .f32 0x00000000#32) = _
  rw [Cert.LibPlainContract.matmul_plain_apply, Cert.Lib.Keepdims.broadcastTo_a1_ab_apply, broadcastTo_1b_ab_apply, zero_word]
  rfl

/-- Where each window's block sits at grid point t: the row blocks at block row t, the weights and the bias row at
    the origin. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row p of block row t is row t · 5000 + p of the array: the message window's block at an entry. -/
theorem blk0_apply (c : Dev nD) (t : Fin cfg3.N) (p : Fin 5000) (q : Fin 128) (P : Fin 100000) (hP : P.val = t.val * 5000 + p.val) :
    (iblk3 V c 0 t : Vec Ideal S5000x128 .f32) (ix2 p q) = (V c main_v39 : S100000x128.Idx → EReal) (ix2 P q) := by
  obtain ⟨e0, e1, -⟩ := idx_facts t
  unfold iblk3
  rw [View.read_apply]
  show (V c main_v39 : S100000x128.Idx → EReal) _ = _
  refine congrArg _ (funext fun a => Fin.ext ?_)
  match a with
  | ⟨0, _⟩ => show win3_0.index t (0 : Fin 2) * 5000 + 1 * p.val = P.val; rw [e0, hP]; omega
  | ⟨1, _⟩ => show win3_0.index t (1 : Fin 2) * 128 + 1 * q.val = q.val; rw [e1]; omega

/-- The weight window's one block is the whole matrix. -/
theorem blk1_apply (c : Dev nD) (t : Fin cfg3.N) (k : Fin 128) (q : Fin 128) :
    (iblk3 V c 1 t : Vec Ideal S128x128 .f32) (ix2 k q) = (V c main_arg5 : S128x128.Idx → EReal) (ix2 k q) := by
  obtain ⟨-, -, e0, e1, -⟩ := idx_facts t
  unfold iblk3
  rw [View.read_apply]
  show (V c main_arg5 : S128x128.Idx → EReal) _ = _
  refine congrArg _ (funext fun a => Fin.ext ?_)
  match a with
  | ⟨0, _⟩ => show win3_1.index t (0 : Fin 2) * 128 + 1 * k.val = k.val; rw [e0]; omega
  | ⟨1, _⟩ => show win3_1.index t (1 : Fin 2) * 128 + 1 * q.val = q.val; rw [e1]; omega

/-- The scale window's block at an entry. -/
theorem blk2_apply (c : Dev nD) (t : Fin cfg3.N) (p : Fin 5000) (P : Fin 100000) (hP : P.val = t.val * 5000 + p.val) :
    (iblk3 V c 2 t : Vec Ideal S5000x1 .f32) (ix2 p (0 : Fin 1)) = (V c main_v12 : S100000x1.Idx → EReal) (ix2 P (0 : Fin 1)) := by
  obtain ⟨-, -, -, -, e0, e1, -⟩ := idx_facts t
  unfold iblk3
  rw [View.read_apply]
  show (V c main_v12 : S100000x1.Idx → EReal) _ = _
  refine congrArg _ (funext fun a => Fin.ext ?_)
  match a with
  | ⟨0, _⟩ => show win3_2.index t (0 : Fin 2) * 5000 + 1 * p.val = P.val; rw [e0, hP]; omega
  | ⟨1, _⟩ => show win3_2.index t (1 : Fin 2) * 1 + 1 * 0 = 0; rw [e1]

/-- The bias window's one block is the whole bias row. -/
theorem blk3_apply (c : Dev nD) (t : Fin cfg3.N) (q : Fin 128) :
    (iblk3 V c 3 t : Vec Ideal S1x128 .f32) (ix2 (0 : Fin 1) q) = (V c main_v27 : S1x128.Idx → EReal) (ix2 (0 : Fin 1) q) := by
  obtain ⟨-, -, -, -, -, -, e0, e1, -⟩ := idx_facts t
  unfold iblk3
  rw [View.read_apply]
  show (V c main_v27 : S1x128.Idx → EReal) _ = _
  refine congrArg _ (funext fun a => Fin.ext ?_)
  match a with
  | ⟨0, _⟩ => show win3_3.index t (0 : Fin 2) * 1 + 1 * 0 = 0; rw [e0]
  | ⟨1, _⟩ => show win3_3.index t (1 : Fin 2) * 128 + 1 * q.val = q.val; rw [e1]; omega

/-- The layer's dense stage as one function of whole arrays. -/
abbrev result (c : Dev nD) (d : FVec Ideal S100000 .f32) (b : FVec Ideal S128 .f32)
    (h0 : S100000.BroadcastsInDim S100000x1 (![0] : Fin 1 → Fin S100000x1.rank))
    (h01 : S100000x1.BroadcastsInDim S100000x128 (![0, 1] : Fin 2 → Fin S100000x128.rank))
    (h1 : S128.BroadcastsInDim S1x128 (![1] : Fin 1 → Fin S1x128.rank)) (h2 : S1x128.BroadcastsInDim S100000x128 (![0, 1] : Fin 2 → Fin S100000x128.rank))
    (h3 : S_.BroadcastsInDim S100000x128 (![] : Fin 0 → Fin S100000x128.rank)) : S100000x128.Idx → EReal :=
  maximumf (addf (mulf (denseH (V c main_v39 : S100000x128.Idx → EReal) (V c main_arg5 : S128x128.Idx → EReal)) (spreadRows h0 h01 d)) (spreadCols h1 h2 b))
    (broadcastInDim S100000x128 ![] h3 (constant (F := Ideal) S_ .f32 0x00000000#32))

/-- What grid point t writes back is block row t of the layer's dense stage. -/
theorem flushed_eq (c : Dev nD) (d : FVec Ideal S100000 .f32)
    (hS : (V c main_v12 : S100000x1.Idx → EReal) = shapeCast S100000x1 d shapeCasts_S100000_S100000x1)
    (b : FVec Ideal S128 .f32) (hB : (V c main_v27 : S1x128.Idx → EReal) = shapeCast S1x128 b shapeCasts_S128_S1x128)
    (h0 : S100000.BroadcastsInDim S100000x1 (![0] : Fin 1 → Fin S100000x1.rank))
    (h01 : S100000x1.BroadcastsInDim S100000x128 (![0, 1] : Fin 2 → Fin S100000x128.rank))
    (h1 : S128.BroadcastsInDim S1x128 (![1] : Fin 1 → Fin S1x128.rank)) (h2 : S1x128.BroadcastsInDim S100000x128 (![0, 1] : Fin 2 → Fin S100000x128.rank))
    (h3 : S_.BroadcastsInDim S100000x128 (![] : Fin 0 → Fin S100000x128.rank))
    (t : Fin cfg3.N) :
    (dat3 V c).flushed 4 t = ((cfg3.win 4).blk t).view.read (Elt Ideal) (result V c d b h0 h01 h1 h2 h3) := by
  show (cfg3.win 4).cut (grid3.coords t) ((dat3 V c).after 4 t) = _
  rw [after3_4]
  unfold out3_4
  rw [View.canon_unit_zero hz]
  simp only [View.ld_unit_zero (S := S5000x128) hz, View.ld_unit_zero (S := S5000x1) hz, View.ld_unit_zero (S := S1x128) hz, View.ld_unit_zero (S := S128x128) hz]
  funext j
  obtain ⟨p, q, rfl⟩ : ∃ (p : Fin 5000) (q : Fin 128), j = ix2 p q := ⟨j 0, j 1, eq_ix2 j⟩
  have hN : t.val < 20 := Nat.lt_of_lt_of_eq t.isLt N_3
  obtain ⟨-, -, -, -, -, -, -, -, e0, e1⟩ := idx_facts t
  have hP : t.val * 5000 + p.val < 100000 := by have := p.isLt; omega
  show k3_pay1 (iblk3 V c 0 t : Vec Ideal S5000x128 .f32) (iblk3 V c 1 t : Vec Ideal S128x128 .f32) (iblk3 V c 2 t : Vec Ideal S5000x1 .f32) (iblk3 V c 3 t : Vec Ideal S1x128 .f32) (ix2 p q)
      = result V c d b h0 h01 h1 h2 h3 (((cfg3.win 4).blk t).view.emb (ix2 p q))
  have he : ((cfg3.win 4).blk t).view.emb (ix2 p q) = (ix2 (⟨t.val * 5000 + p.val, hP⟩ : Fin 100000) q : S100000x128.Idx) := by
    funext a; apply Fin.ext
    match a with
    | ⟨0, _⟩ => show win3_4.index t (0 : Fin 2) * 5000 + 1 * p.val = t.val * 5000 + p.val; rw [e0]; omega
    | ⟨1, _⟩ => show win3_4.index t (1 : Fin 2) * 128 + 1 * q.val = q.val; rw [e1]; omega
  rw [pay_apply, blk2_apply V c t p ⟨_, hP⟩ rfl, blk3_apply V c t q, hS, hB,
    Cert.Lib.Keepdims.shapeCast_a_a1_apply, Cert.LibLreluRows.rowCast_apply, he]
  unfold result
  rw [max_apply, add_apply, scale_apply, spreadRows_apply, spreadCols_apply, zeros_apply, denseH_apply]
  refine congrArg (fun s => max (s * d (ix1 (⟨t.val * 5000 + p.val, hP⟩ : Fin 100000)) + b (ix1 q)) 0) (Finset.sum_congr rfl fun k _ => ?_)
  rw [blk0_apply V c t p k ⟨_, hP⟩ rfl, blk1_apply V c t k q]

/-- An index of the array lies in point t's block exactly when each coordinate lies in the block's range. -/
theorem mem_blk (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v40).slice (win3_4.rect t)).set ↔ _
  rw [View.set_slice_whole, Rect.mem_set_unit]
  exact Iff.rfl

/-- Row P lies in block row P / 5000: the twenty blocks tile the array. -/
theorem cover (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 20 := N_3
  have ht : (i 0).val / 5000 < cfg3.N := by rw [hN]; omega
  refine ⟨⟨(i 0).val / 5000, ht⟩, flush3_4 _, ?_⟩
  rw [mem_blk]
  obtain ⟨-, -, -, -, -, -, -, -, e0, e1⟩ := idx_facts ⟨(i 0).val / 5000, ht⟩
  intro a
  match a with
  | ⟨0, _⟩ =>
    show win3_4.index ⟨(i 0).val / 5000, ht⟩ (0 : Fin 2) * 5000 ≤ (i 0).val ∧ (i 0).val < win3_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_4.index ⟨(i 0).val / 5000, ht⟩ (1 : Fin 2) * 128 ≤ (i 1).val ∧ (i 1).val < win3_4.index ⟨(i 0).val / 5000, ht⟩ (1 : Fin 2) * 128 + 128
    rw [e1]; omega

/-- The array the launch leaves: the layer's dense stage of the arrays it was entered with. -/
theorem final (c : Dev nD) (d : FVec Ideal S100000 .f32)
    (hS : (V c main_v12 : S100000x1.Idx → EReal) = shapeCast S100000x1 d shapeCasts_S100000_S100000x1)
    (b : FVec Ideal S128 .f32) (hB : (V c main_v27 : S1x128.Idx → EReal) = shapeCast S1x128 b shapeCasts_S128_S1x128)
    (h0 : S100000.BroadcastsInDim S100000x1 (![0] : Fin 1 → Fin S100000x1.rank))
    (h01 : S100000x1.BroadcastsInDim S100000x128 (![0, 1] : Fin 2 → Fin S100000x128.rank))
    (h1 : S128.BroadcastsInDim S1x128 (![1] : Fin 1 → Fin S1x128.rank)) (h2 : S1x128.BroadcastsInDim S100000x128 (![0, 1] : Fin 2 → Fin S100000x128.rank))
    (h3 : S_.BroadcastsInDim S100000x128 (![] : Fin 0 → Fin S100000x128.rank)) :
    (dat3 V c).arrAt 4 cfg3.N = result V c d b h0 h01 h1 h2 h3 :=
  (dat3 V c).arrAt_eq_of_cover 4 _ (fun t _ => flushed_eq V c d hS b hB h0 h01 h1 h2 h3 t) cover

end Cert.KernelIdeal.Dense3

end
-- ==== Proof.Proj4.lean ====
/-
  The fifth launch scales the rows of the second layer's output and multiplies by the last weight matrix: with the
  scale column the cast of a vector d, the array it writes holds Σ_k (x[P, k] · d[P]) · W[k, q] at every entry (P, q).
  A grid point multiplies five thousand whole scaled rows by the whole weight matrix, and the twenty row blocks tile
  the array.
-/
import proofs.«110976_j79817672229553_1_alg».proof.Proof.Gen.KernelIdeal.Frame
import proofs.«110976_j79817672229553_1_alg».proof.Proof.LibDenseStages
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Proj4

open Cert.KernelIdeal Cert.KernelIdeal.Gen Cert.GraphConv

variable (V : (c : Dev nD) → (b : Ref sig .tc) → Buf (Elt Ideal) ((c : Thread nD τ).loc b))

theorem hz : (![0, 0] : Fin 2 → Nat) = fun _ => 0 := funext fun a => by fin_cases a <;> rfl

/-- One entry of what a point stores: the scaled row of the loaded block against the column of the weights. -/
theorem pay_apply (x0 : Vec Ideal S5000x128 .f32) (x1 : Vec Ideal S5000x1 .f32) (x2 : Vec Ideal S128x64 .f32) (p : Fin 5000) (q : Fin 64) :
    k4_pay1 x0 x1 x2 (ix2 p q) = ∑ k : Fin 128, (x0 (ix2 p k) * x1 (ix2 p (0 : Fin 1))) * x2 (ix2 k q) := by
  unfold k4_pay1
  simp only [shapeCast_self]
  show FloatOps.matmul (F := Ideal) (DotDims.plain 5000 128 64) none (truncf .bf16 (mulf x0 (broadcastTo S5000x128 x1 _)) _) (truncf .bf16 x2 _)
      (constant ⟨2, ![5000, 64]⟩ .f32 0x00000000#32) (ix2 p q) = _
  rw [Cert.LibPlainContract.matmul_plain_apply]
  refine Finset.sum_congr rfl fun k _ => ?_
  show x0 (ix2 p k) * broadcastTo S5000x128 x1 _ (ix2 p k) * x2 (ix2 k q) = _
  rw [Cert.Lib.Keepdims.broadcastTo_a1_ab_apply]

/-- Where each window's block sits at grid point t: the row blocks at block row t, the weights at the origin. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row p of block row t is row t · 5000 + p of the array: the feature window's block at an entry. -/
theorem blk0_apply (c : Dev nD) (t : Fin cfg4.N) (p : Fin 5000) (q : Fin 128) (P : Fin 100000) (hP : P.val = t.val * 5000 + p.val) :
    (iblk4 V c 0 t : Vec Ideal S5000x128 .f32) (ix2 p q) = (V c main_v40 : S100000x128.Idx → EReal) (ix2 P q) := by
  obtain ⟨e0, e1, -⟩ := idx_facts t
  unfold iblk4
  rw [View.read_apply]
  show (V c main_v40 : S100000x128.Idx → EReal) _ = _
  refine congrArg _ (funext fun a => Fin.ext ?_)
  match a with
  | ⟨0, _⟩ => show win4_0.index t (0 : Fin 2) * 5000 + 1 * p.val = P.val; rw [e0, hP]; omega
  | ⟨1, _⟩ => show win4_0.index t (1 : Fin 2) * 128 + 1 * q.val = q.val; rw [e1]; omega

/-- The scale window's block at an entry. -/
theorem blk1_apply (c : Dev nD) (t : Fin cfg4.N) (p : Fin 5000) (P : Fin 100000) (hP : P.val = t.val * 5000 + p.val) :
    (iblk4 V c 1 t : Vec Ideal S5000x1 .f32) (ix2 p (0 : Fin 1)) = (V c main_v10 : S100000x1.Idx → EReal) (ix2 P (0 : Fin 1)) := by
  obtain ⟨-, -, e0, e1, -⟩ := idx_facts t
  unfold iblk4
  rw [View.read_apply]
  show (V c main_v10 : S100000x1.Idx → EReal) _ = _
  refine congrArg _ (funext fun a => Fin.ext ?_)
  match a with
  | ⟨0, _⟩ => show win4_1.index t (0 : Fin 2) * 5000 + 1 * p.val = P.val; rw [e0, hP]; omega
  | ⟨1, _⟩ => show win4_1.index t (1 : Fin 2) * 1 + 1 * 0 = 0; rw [e1]

/-- The weight window's one block is the whole matrix. -/
theorem blk2_apply (c : Dev nD) (t : Fin cfg4.N) (k : Fin 128) (q : Fin 64) :
    (iblk4 V c 2 t : Vec Ideal S128x64 .f32) (ix2 k q) = (V c main_arg7 : S128x64.Idx → EReal) (ix2 k q) := by
  obtain ⟨-, -, -, -, e0, e1, -⟩ := idx_facts t
  unfold iblk4
  rw [View.read_apply]
  show (V c main_arg7 : S128x64.Idx → EReal) _ = _
  refine congrArg _ (funext fun a => Fin.ext ?_)
  match a with
  | ⟨0, _⟩ => show win4_2.index t (0 : Fin 2) * 128 + 1 * k.val = k.val; rw [e0]; omega
  | ⟨1, _⟩ => show win4_2.index t (1 : Fin 2) * 64 + 1 * q.val = q.val; rw [e1]; omega

/-- What grid point t writes back is block row t of the scaled features' product with the weights. -/
theorem flushed_eq (c : Dev nD) (d : FVec Ideal S100000 .f32)
    (hS : (V c main_v10 : S100000x1.Idx → EReal) = shapeCast S100000x1 d shapeCasts_S100000_S100000x1)
    (h0 : S100000.BroadcastsInDim S100000x1 (![0] : Fin 1 → Fin S100000x1.rank))
    (h01 : S100000x1.BroadcastsInDim S100000x128 (![0, 1] : Fin 2 → Fin S100000x128.rank))
    (t : Fin cfg4.N) :
    (dat4 V c).flushed 3 t = ((cfg4.win 3).blk t).view.read (Elt Ideal)
      (denseH (mulf (V c main_v40 : S100000x128.Idx → EReal) (spreadRows h0 h01 d)) (V c main_arg7 : S128x64.Idx → EReal)) := by
  show (cfg4.win 3).cut (grid4.coords t) ((dat4 V c).after 3 t) = _
  rw [after4_3]
  unfold out4_3
  rw [View.canon_unit_zero hz]
  simp only [View.ld_unit_zero (S := S5000x128) hz, View.ld_unit_zero (S := S5000x1) hz, View.ld_unit_zero (S := S128x64) hz]
  funext j
  obtain ⟨p, q, rfl⟩ : ∃ (p : Fin 5000) (q : Fin 64), j = ix2 p q := ⟨j 0, j 1, eq_ix2 j⟩
  have hN : t.val < 20 := Nat.lt_of_lt_of_eq t.isLt N_4
  obtain ⟨-, -, -, -, -, -, e0, e1⟩ := idx_facts t
  have hP : t.val * 5000 + p.val < 100000 := by have := p.isLt; omega
  show k4_pay1 (iblk4 V c 0 t : Vec Ideal S5000x128 .f32) (iblk4 V c 1 t : Vec Ideal S5000x1 .f32) (iblk4 V c 2 t : Vec Ideal S128x64 .f32) (ix2 p q)
      = denseH (mulf (V c main_v40 : S100000x128.Idx → EReal) (spreadRows h0 h01 d)) (V c main_arg7 : S128x64.Idx → EReal) (((cfg4.win 3).blk t).view.emb (ix2 p q))
  have he : ((cfg4.win 3).blk t).view.emb (ix2 p q) = (ix2 (⟨t.val * 5000 + p.val, hP⟩ : Fin 100000) q : S100000x64.Idx) := by
    funext a; apply Fin.ext
    match a with
    | ⟨0, _⟩ => show win4_3.index t (0 : Fin 2) * 5000 + 1 * p.val = t.val * 5000 + p.val; rw [e0]; omega
    | ⟨1, _⟩ => show win4_3.index t (1 : Fin 2) * 64 + 1 * q.val = q.val; rw [e1]; omega
  rw [pay_apply, blk1_apply V c t p ⟨_, hP⟩ rfl, hS, Cert.Lib.Keepdims.shapeCast_a_a1_apply, he, denseH_apply]
  refine Finset.sum_congr rfl fun k _ => ?_
  rw [blk0_apply V c t p k ⟨_, hP⟩ rfl, blk2_apply V c t k q, scale_apply, spreadRows_apply]

/-- An index of the array lies in point t's block exactly when each coordinate lies in the block's range. -/
theorem mem_blk (t : Fin cfg4.N) (i : S100000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v42).slice (win4_3.rect t)).set ↔ _
  rw [View.set_slice_whole, Rect.mem_set_unit]
  exact Iff.rfl

/-- Row P lies in block row P / 5000: the twenty blocks tile the array. -/
theorem cover (i : S100000x64.Idx) : ∃ t : Fin cfg4.N, (cfg4.win 3).flush t = true ∧ i ∈ ((cfg4.win 3).blk t).view.set := by
  have hi0 : (i 0).val < 100000 := (i 0).isLt
  have hi1 : (i 1).val < 64 := (i 1).isLt
  have hN : cfg4.N = 20 := N_4
  have ht : (i 0).val / 5000 < cfg4.N := by rw [hN]; omega
  refine ⟨⟨(i 0).val / 5000, ht⟩, flush4_3 _, ?_⟩
  rw [mem_blk]
  obtain ⟨-, -, -, -, -, -, e0, e1⟩ := idx_facts ⟨(i 0).val / 5000, ht⟩
  intro a
  match a with
  | ⟨0, _⟩ =>
    show win4_3.index ⟨(i 0).val / 5000, ht⟩ (0 : Fin 2) * 5000 ≤ (i 0).val ∧ (i 0).val < win4_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_3.index ⟨(i 0).val / 5000, ht⟩ (1 : Fin 2) * 64 ≤ (i 1).val ∧ (i 1).val < win4_3.index ⟨(i 0).val / 5000, ht⟩ (1 : Fin 2) * 64 + 64
    rw [e1]; omega

/-- The array the launch leaves: the scaled features times the weights. -/
theorem final (c : Dev nD) (d : FVec Ideal S100000 .f32)
    (hS : (V c main_v10 : S100000x1.Idx → EReal) = shapeCast S100000x1 d shapeCasts_S100000_S100000x1)
    (h0 : S100000.BroadcastsInDim S100000x1 (![0] : Fin 1 → Fin S100000x1.rank))
    (h01 : S100000x1.BroadcastsInDim S100000x128 (![0, 1] : Fin 2 → Fin S100000x128.rank)) :
    (dat4 V c).arrAt 3 cfg4.N
      = denseH (mulf (V c main_v40 : S100000x128.Idx → EReal) (spreadRows h0 h01 d)) (V c main_arg7 : S128x64.Idx → EReal) :=
  (dat4 V c).arrAt_eq_of_cover 3 _ (fun t _ => flushed_eq V c d hS h0 h01 t) cover

end Cert.KernelIdeal.Proj4

end
-- ==== Proof.Bias5.lean ====
/-
  The last launch scales the rows of the aggregated messages and adds the bias: with the scale column the cast of a
  vector d and the bias row the cast of a vector b, the array it writes holds a[P, q] · d[P] + b[q] at every entry
  (P, q). Each of its twenty grid points writes five thousand whole rows, and the twenty row blocks tile the array.
-/
import proofs.«110976_j79817672229553_1_alg».proof.Proof.Gen.KernelIdeal.Frame
import proofs.«110976_j79817672229553_1_alg».proof.Proof.LibDenseStages
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Bias5

open Cert.KernelIdeal Cert.KernelIdeal.Gen Cert.GraphConv

variable (V : (c : Dev nD) → (b : Ref sig .tc) → Buf (Elt Ideal) ((c : Thread nD τ).loc b))

theorem hz : (![0, 0] : Fin 2 → Nat) = fun _ => 0 := funext fun a => by fin_cases a <;> rfl

/-- One entry of what a point stores: the loaded block's entry times the scale column's entry of its row, plus the
    bias row's entry of its column. -/
theorem pay_apply (x0 : Vec Ideal S5000x64 .f32) (x1 : Vec Ideal S5000x1 .f32) (x2 : Vec Ideal S1x64 .f32) (p : Fin 5000) (q : Fin 64) :
    k5_pay1 x0 x1 x2 (ix2 p q) = x0 (ix2 p q) * x1 (ix2 p (0 : Fin 1)) + x2 (ix2 (0 : Fin 1) q) := by
  unfold k5_pay1
  simp only [shapeCast_self]
  show x0 (ix2 p q) * broadcastTo S5000x64 x1 _ (ix2 p q) + broadcastTo S5000x64 x2 _ (ix2 p q) = _
  rw [Cert.Lib.Keepdims.broadcastTo_a1_ab_apply, broadcastTo_1b_ab_apply]

/-- Where each window's block sits at grid point t: the row blocks at block row t, the bias row at the origin. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Row p of block row t is row t · 5000 + p of the array: the message window's block at an entry. -/
theorem blk0_apply (c : Dev nD) (t : Fin cfg5.N) (p : Fin 5000) (q : Fin 64) (P : Fin 100000) (hP : P.val = t.val * 5000 + p.val) :
    (iblk5 V c 0 t : Vec Ideal S5000x64 .f32) (ix2 p q) = (V c main_v52 : S100000x64.Idx → EReal) (ix2 P q) := by
  obtain ⟨e0, e1, -⟩ := idx_facts t
  unfold iblk5
  rw [View.read_apply]
  show (V c main_v52 : S100000x64.Idx → EReal) _ = _
  refine congrArg _ (funext fun a => Fin.ext ?_)
  match a with
  | ⟨0, _⟩ => show win5_0.index t (0 : Fin 2) * 5000 + 1 * p.val = P.val; rw [e0, hP]; omega
  | ⟨1, _⟩ => show win5_0.index t (1 : Fin 2) * 64 + 1 * q.val = q.val; rw [e1]; omega

/-- The scale window's block at an entry. -/
theorem blk1_apply (c : Dev nD) (t : Fin cfg5.N) (p : Fin 5000) (P : Fin 100000) (hP : P.val = t.val * 5000 + p.val) :
    (iblk5 V c 1 t : Vec Ideal S5000x1 .f32) (ix2 p (0 : Fin 1)) = (V c main_v12 : S100000x1.Idx → EReal) (ix2 P (0 : Fin 1)) := by
  obtain ⟨-, -, e0, e1, -⟩ := idx_facts t
  unfold iblk5
  rw [View.read_apply]
  show (V c main_v12 : S100000x1.Idx → EReal) _ = _
  refine congrArg _ (funext fun a => Fin.ext ?_)
  match a with
  | ⟨0, _⟩ => show win5_1.index t (0 : Fin 2) * 5000 + 1 * p.val = P.val; rw [e0, hP]; omega
  | ⟨1, _⟩ => show win5_1.index t (1 : Fin 2) * 1 + 1 * 0 = 0; rw [e1]

/-- The bias window's one block is the whole bias row. -/
theorem blk2_apply (c : Dev nD) (t : Fin cfg5.N) (q : Fin 64) :
    (iblk5 V c 2 t : Vec Ideal S1x64 .f32) (ix2 (0 : Fin 1) q) = (V c main_v41 : S1x64.Idx → EReal) (ix2 (0 : Fin 1) q) := by
  obtain ⟨-, -, -, -, e0, e1, -⟩ := idx_facts t
  unfold iblk5
  rw [View.read_apply]
  show (V c main_v41 : S1x64.Idx → EReal) _ = _
  refine congrArg _ (funext fun a => Fin.ext ?_)
  match a with
  | ⟨0, _⟩ => show win5_2.index t (0 : Fin 2) * 1 + 1 * 0 = 0; rw [e0]
  | ⟨1, _⟩ => show win5_2.index t (1 : Fin 2) * 64 + 1 * q.val = q.val; rw [e1]; omega

/-- What grid point t writes back is block row t of the scaled and biased messages. -/
theorem flushed_eq (c : Dev nD) (d : FVec Ideal S100000 .f32)
    (hS : (V c main_v12 : S100000x1.Idx → EReal) = shapeCast S100000x1 d shapeCasts_S100000_S100000x1)
    (b : FVec Ideal S64 .f32) (hB : (V c main_v41 : S1x64.Idx → EReal) = shapeCast S1x64 b shapeCasts_S64_S1x64)
    (h0 : S100000.BroadcastsInDim S100000x1 (![0] : Fin 1 → Fin S100000x1.rank))
    (h01 : S100000x1.BroadcastsInDim S100000x64 (![0, 1] : Fin 2 → Fin S100000x64.rank))
    (h1 : S64.BroadcastsInDim S1x64 (![1] : Fin 1 → Fin S1x64.rank)) (h2 : S1x64.BroadcastsInDim S100000x64 (![0, 1] : Fin 2 → Fin S100000x64.rank))
    (t : Fin cfg5.N) :
    (dat5 V c).flushed 3 t = ((cfg5.win 3).blk t).view.read (Elt Ideal)
      (addf (mulf (V c main_v52 : S100000x64.Idx → EReal) (spreadRows h0 h01 d)) (spreadCols h1 h2 b)) := by
  show (cfg5.win 3).cut (grid5.coords t) ((dat5 V c).after 3 t) = _
  rw [after5_3]
  unfold out5_3
  rw [View.canon_unit_zero hz]
  simp only [View.ld_unit_zero (S := S5000x64) hz, View.ld_unit_zero (S := S5000x1) hz, View.ld_unit_zero (S := S1x64) hz]
  funext j
  obtain ⟨p, q, rfl⟩ : ∃ (p : Fin 5000) (q : Fin 64), j = ix2 p q := ⟨j 0, j 1, eq_ix2 j⟩
  have hN : t.val < 20 := Nat.lt_of_lt_of_eq t.isLt N_5
  obtain ⟨-, -, -, -, -, -, e0, e1⟩ := idx_facts t
  have hP : t.val * 5000 + p.val < 100000 := by have := p.isLt; omega
  show k5_pay1 (iblk5 V c 0 t : Vec Ideal S5000x64 .f32) (iblk5 V c 1 t : Vec Ideal S5000x1 .f32) (iblk5 V c 2 t : Vec Ideal S1x64 .f32) (ix2 p q)
      = addf (mulf (V c main_v52 : S100000x64.Idx → EReal) (spreadRows h0 h01 d)) (spreadCols h1 h2 b) (((cfg5.win 3).blk t).view.emb (ix2 p q))
  rw [pay_apply, blk0_apply V c t p q ⟨_, hP⟩ rfl, blk1_apply V c t p ⟨_, hP⟩ rfl, blk2_apply V c t q, hS, hB,
    Cert.Lib.Keepdims.shapeCast_a_a1_apply, Cert.LibLreluRows.rowCast_apply]
  have he : ((cfg5.win 3).blk t).view.emb (ix2 p q) = (ix2 (⟨t.val * 5000 + p.val, hP⟩ : Fin 100000) q : S100000x64.Idx) := by
    funext a; apply Fin.ext
    match a with
    | ⟨0, _⟩ => show win5_3.index t (0 : Fin 2) * 5000 + 1 * p.val = t.val * 5000 + p.val; rw [e0]; omega
    | ⟨1, _⟩ => show win5_3.index t (1 : Fin 2) * 64 + 1 * q.val = q.val; rw [e1]; omega
  rw [he, add_apply, scale_apply, spreadRows_apply, spreadCols_apply]

/-- An index of the array lies in point t's block exactly when each coordinate lies in the block's range. -/
theorem mem_blk (t : Fin cfg5.N) (i : S100000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v53).slice (win5_3.rect t)).set ↔ _
  rw [View.set_slice_whole, Rect.mem_set_unit]
  exact Iff.rfl

/-- Row P lies in block row P / 5000: the twenty blocks tile the array. -/
theorem cover (i : S100000x64.Idx) : ∃ t : Fin cfg5.N, (cfg5.win 3).flush t = true ∧ i ∈ ((cfg5.win 3).blk t).view.set := by
  have hi0 : (i 0).val < 100000 := (i 0).isLt
  have hi1 : (i 1).val < 64 := (i 1).isLt
  have hN : cfg5.N = 20 := N_5
  have ht : (i 0).val / 5000 < cfg5.N := by rw [hN]; omega
  refine ⟨⟨(i 0).val / 5000, ht⟩, flush5_3 _, ?_⟩
  rw [mem_blk]
  obtain ⟨-, -, -, -, -, -, e0, e1⟩ := idx_facts ⟨(i 0).val / 5000, ht⟩
  intro a
  match a with
  | ⟨0, _⟩ =>
    show win5_3.index ⟨(i 0).val / 5000, ht⟩ (0 : Fin 2) * 5000 ≤ (i 0).val ∧ (i 0).val < win5_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win5_3.index ⟨(i 0).val / 5000, ht⟩ (1 : Fin 2) * 64 ≤ (i 1).val ∧ (i 1).val < win5_3.index ⟨(i 0).val / 5000, ht⟩ (1 : Fin 2) * 64 + 64
    rw [e1]; omega

/-- The array the launch leaves: every row scaled, the bias added. -/
theorem final (c : Dev nD) (d : FVec Ideal S100000 .f32)
    (hS : (V c main_v12 : S100000x1.Idx → EReal) = shapeCast S100000x1 d shapeCasts_S100000_S100000x1)
    (b : FVec Ideal S64 .f32) (hB : (V c main_v41 : S1x64.Idx → EReal) = shapeCast S1x64 b shapeCasts_S64_S1x64)
    (h0 : S100000.BroadcastsInDim S100000x1 (![0] : Fin 1 → Fin S100000x1.rank))
    (h01 : S100000x1.BroadcastsInDim S100000x64 (![0, 1] : Fin 2 → Fin S100000x64.rank))
    (h1 : S64.BroadcastsInDim S1x64 (![1] : Fin 1 → Fin S1x64.rank)) (h2 : S1x64.BroadcastsInDim S100000x64 (![0, 1] : Fin 2 → Fin S100000x64.rank)) :
    (dat5 V c).arrAt 3 cfg5.N = addf (mulf (V c main_v52 : S100000x64.Idx → EReal) (spreadRows h0 h01 d)) (spreadCols h1 h2 b) :=
  (dat5 V c).arrAt_eq_of_cover 3 _ (fun t _ => flushed_eq V c d hS b hB h0 h01 h1 h2 t) cover

end Cert.KernelIdeal.Bias5

end
-- ==== Proof.Walk.lean ====
/-
  The contents of the buffers that matter at each boundary between the program's segments, floats read as exact values, from the first
  launch to the last: each launch's output array is its stage's function of the arrays it was entered with, each
  aggregation is the gather and scatter-add of the stage before it, and the scales, the bias rows, the weights and the
  edge lists reach every launch as the lines before the first launch left them. Composed, the result buffer ends at
  the three layers' function of the nine arguments.
-/
import proofs.«110976_j79817672229553_1_alg».proof.Proof.Keep
import proofs.«110976_j79817672229553_1_alg».proof.Proof.Scale0
import proofs.«110976_j79817672229553_1_alg».proof.Proof.Dense1
import proofs.«110976_j79817672229553_1_alg».proof.Proof.Scale2
import proofs.«110976_j79817672229553_1_alg».proof.Proof.Dense3
import proofs.«110976_j79817672229553_1_alg».proof.Proof.Proj4
import proofs.«110976_j79817672229553_1_alg».proof.Proof.Bias5

noncomputable section

namespace Cert.KernelIdeal.Walk

open Cert.KernelIdeal Cert.KernelIdeal.Gen Cert.KernelIdeal.Terms Cert.GraphConv
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Layer 1 -/

/-- After the first launch: the features with rows scaled by the out-degree scale. -/
theorem e6 : W6 m ρ c (Proc.devRef .tc main_v15) = scaled (m ((c : Thread nD τ).loc main_arg0)) (deg (m ((c : Thread nD τ).loc main_arg1))) :=
  (W6_arr m ρ c 3).trans ((Scale0.final (V5 m ρ) c (deg (m ((c : Thread nD τ).loc main_arg1))) (w5_v10 m ρ c) (w5_v14 m ρ c) h0 h01).trans
    (congrArg (fun x => scaled x (deg (m ((c : Thread nD τ).loc main_arg1)))) (w5_arg0 m ρ c)))

/-- The lines after the first launch gather and scatter-add what it wrote. -/
theorem s7 : W7 m ρ c (Proc.devRef .tc main_v25) = (agg128 (W6 m ρ c (Proc.devRef .tc main_v15) : S100000x128.Idx → EReal) (W6 m ρ c (Proc.devRef .tc main_arg1) : Ends) (W6 m ρ c (Proc.devRef .tc main_arg2) : Ends)) := by
  show StableHlo.after hostOps1 (W6 m ρ c) (Proc.devRef .tc main_v25) = _
  generalize W6 m ρ c = X
  after_results_simp
  first | done | rfl

/-- The aggregation of the first layer. -/
theorem e7 : W7 m ρ c (Proc.devRef .tc main_v25) = agg128 (scaled (m ((c : Thread nD τ).loc main_arg0)) (deg (m ((c : Thread nD τ).loc main_arg1)))) (m ((c : Thread nD τ).loc main_arg1)) (m ((c : Thread nD τ).loc main_arg2)) := by
  rw [s7, e6 m ρ c, (W6_of_ne m ρ c main_arg1 (by decide)), (W6_of_ne m ρ c main_arg2 (by decide)), w5_arg1 m ρ c, w5_arg2 m ρ c]

/-- After the second launch: the first layer's output. -/
theorem e8 : W8 m ρ c (Proc.devRef .tc main_v26) = dense (agg128 (scaled (m ((c : Thread nD τ).loc main_arg0)) (deg (m ((c : Thread nD τ).loc main_arg1)))) (m ((c : Thread nD τ).loc main_arg1)) (m ((c : Thread nD τ).loc main_arg2))) (m ((c : Thread nD τ).loc main_arg3)) (deg (m ((c : Thread nD τ).loc main_arg2))) (m ((c : Thread nD τ).loc main_arg4)) :=
  (W8_arr m ρ c 4).trans ((Dense1.final (V7 m ρ) c (deg (m ((c : Thread nD τ).loc main_arg2))) (((keep7 m ρ c main_v12 (by decide)).trans (W6_of_ne m ρ c main_v12 (by decide))).trans (w5_v12 m ρ c)) (m ((c : Thread nD τ).loc main_arg4)) (((keep7 m ρ c main_v13 (by decide)).trans (W6_of_ne m ρ c main_v13 (by decide))).trans (w5_v13 m ρ c)) h0 h01 h1 h2 bcast_S_S100000x128).trans
    (congrArg₂ (fun a W => dense a W (deg (m ((c : Thread nD τ).loc main_arg2))) (m ((c : Thread nD τ).loc main_arg4))) (e7 m ρ c) (((keep7 m ρ c main_arg3 (by decide)).trans (W6_of_ne m ρ c main_arg3 (by decide))).trans (w5_arg3 m ρ c))))

/-! ## Layer 2 -/

/-- The second bias cast to a row. -/
theorem s9_v27 : W9 m ρ c (Proc.devRef .tc main_v27) = (shapeCast S1x128 (W8 m ρ c (Proc.devRef .tc main_arg6) : S128.Idx → EReal) shapeCasts_S128_S1x128 : S1x128.Idx → EReal) := by
  show StableHlo.after hostOps2 (W8 m ρ c) (Proc.devRef .tc main_v27) = _
  generalize W8 m ρ c = X
  after_results_simp
  first | done | rfl

/-- A row of zeros. -/
theorem e9_v28 : W9 m ρ c (Proc.devRef .tc main_v28) = (broadcastInDim S1x128 ![] bcast_S_S1x128 (constant (F := Ideal) S_ .f32 0x00000000#32) : S1x128.Idx → EReal) := by
  show StableHlo.after hostOps2 (W8 m ρ c) (Proc.devRef .tc main_v28) = _
  generalize W8 m ρ c = X
  after_results_simp
  first | done | rfl

/-- The second bias as a row. -/
theorem e9_v27 : W9 m ρ c (Proc.devRef .tc main_v27) = shapeCast S1x128 (m ((c : Thread nD τ).loc main_arg6)) shapeCasts_S128_S1x128 := by
  rw [s9_v27, ((W8_of_ne m ρ c main_arg6 (by decide)).trans ((keep7 m ρ c main_arg6 (by decide)).trans (W6_of_ne m ρ c main_arg6 (by decide)))), w5_arg6 m ρ c]

/-- After the third launch: the first layer's output with rows scaled. -/
theorem e10 : W10 m ρ c (Proc.devRef .tc main_v29) = scaled (dense (agg128 (scaled (m ((c : Thread nD τ).loc main_arg0)) (deg (m ((c : Thread nD τ).loc main_arg1)))) (m ((c : Thread nD τ).loc main_arg1)) (m ((c : Thread nD τ).loc main_arg2))) (m ((c : Thread nD τ).loc main_arg3)) (deg (m ((c : Thread nD τ).loc main_arg2))) (m ((c : Thread nD τ).loc main_arg4))) (deg (m ((c : Thread nD τ).loc main_arg1))) :=
  (W10_arr m ρ c 3).trans ((Scale2.final (V9 m ρ) c (deg (m ((c : Thread nD τ).loc main_arg1))) (((keep9 m ρ c main_v10 (by decide)).trans ((W8_of_ne m ρ c main_v10 (by decide)).trans ((keep7 m ρ c main_v10 (by decide)).trans ((W6_arr m ρ c 1).trans (((dat0 (V5 m ρ) c).arrAt_in 1 rfl _).trans (A_eq0 (V5 m ρ) c 1)))))).trans (w5_v10 m ρ c)) (e9_v28 m ρ c) h0 h01).trans
    (congrArg (fun x => scaled x (deg (m ((c : Thread nD τ).loc main_arg1)))) ((keep9 m ρ c main_v26 (by decide)).trans (e8 m ρ c))))

/-- The lines after the third launch gather and scatter-add what it wrote. -/
theorem s11 : W11 m ρ c (Proc.devRef .tc main_v39) = (agg128 (W10 m ρ c (Proc.devRef .tc main_v29) : S100000x128.Idx → EReal) (W10 m ρ c (Proc.devRef .tc main_arg1) : Ends) (W10 m ρ c (Proc.devRef .tc main_arg2) : Ends)) := by
  show StableHlo.after hostOps3 (W10 m ρ c) (Proc.devRef .tc main_v39) = _
  generalize W10 m ρ c = X
  after_results_simp
  first | done | rfl

/-- The aggregation of the second layer. -/
theorem e11 : W11 m ρ c (Proc.devRef .tc main_v39) = agg128 (scaled (dense (agg128 (scaled (m ((c : Thread nD τ).loc main_arg0)) (deg (m ((c : Thread nD τ).loc main_arg1)))) (m ((c : Thread nD τ).loc main_arg1)) (m ((c : Thread nD τ).loc main_arg2))) (m ((c : Thread nD τ).loc main_arg3)) (deg (m ((c : Thread nD τ).loc main_arg2))) (m ((c : Thread nD τ).loc main_arg4))) (deg (m ((c : Thread nD τ).loc main_arg1)))) (m ((c : Thread nD τ).loc main_arg1)) (m ((c : Thread nD τ).loc main_arg2)) := by
  rw [s11, e10 m ρ c, ((W10_of_ne m ρ c main_arg1 (by decide)).trans ((keep9 m ρ c main_arg1 (by decide)).trans ((W8_of_ne m ρ c main_arg1 (by decide)).trans ((keep7 m ρ c main_arg1 (by decide)).trans (W6_of_ne m ρ c main_arg1 (by decide)))))), ((W10_of_ne m ρ c main_arg2 (by decide)).trans ((keep9 m ρ c main_arg2 (by decide)).trans ((W8_of_ne m ρ c main_arg2 (by decide)).trans ((keep7 m ρ c main_arg2 (by decide)).trans (W6_of_ne m ρ c main_arg2 (by decide)))))), w5_arg1 m ρ c, w5_arg2 m ρ c]

/-- After the fourth launch: the second layer's output. -/
theorem e12 : W12 m ρ c (Proc.devRef .tc main_v40) = dense (agg128 (scaled (dense (agg128 (scaled (m ((c : Thread nD τ).loc main_arg0)) (deg (m ((c : Thread nD τ).loc main_arg1)))) (m ((c : Thread nD τ).loc main_arg1)) (m ((c : Thread nD τ).loc main_arg2))) (m ((c : Thread nD τ).loc main_arg3)) (deg (m ((c : Thread nD τ).loc main_arg2))) (m ((c : Thread nD τ).loc main_arg4))) (deg (m ((c : Thread nD τ).loc main_arg1)))) (m ((c : Thread nD τ).loc main_arg1)) (m ((c : Thread nD τ).loc main_arg2))) (m ((c : Thread nD τ).loc main_arg5)) (deg (m ((c : Thread nD τ).loc main_arg2))) (m ((c : Thread nD τ).loc main_arg6)) :=
  (W12_arr m ρ c 4).trans ((Dense3.final (V11 m ρ) c (deg (m ((c : Thread nD τ).loc main_arg2))) (((keep11 m ρ c main_v12 (by decide)).trans ((W10_of_ne m ρ c main_v12 (by decide)).trans ((keep9 m ρ c main_v12 (by decide)).trans (((W8_arr m ρ c 2).trans (((dat1 (V7 m ρ) c).arrAt_in 2 rfl _).trans (A_eq1 (V7 m ρ) c 2))).trans ((keep7 m ρ c main_v12 (by decide)).trans (W6_of_ne m ρ c main_v12 (by decide))))))).trans (w5_v12 m ρ c)) (m ((c : Thread nD τ).loc main_arg6)) (((keep11 m ρ c main_v27 (by decide)).trans (W10_of_ne m ρ c main_v27 (by decide))).trans (e9_v27 m ρ c)) h0 h01 h1 h2 bcast_S_S100000x128).trans
    (congrArg₂ (fun a W => dense a W (deg (m ((c : Thread nD τ).loc main_arg2))) (m ((c : Thread nD τ).loc main_arg6))) (e11 m ρ c) (((keep11 m ρ c main_arg5 (by decide)).trans ((W10_of_ne m ρ c main_arg5 (by decide)).trans ((keep9 m ρ c main_arg5 (by decide)).trans ((W8_of_ne m ρ c main_arg5 (by decide)).trans ((keep7 m ρ c main_arg5 (by decide)).trans (W6_of_ne m ρ c main_arg5 (by decide))))))).trans (w5_arg5 m ρ c))))

/-! ## Layer 3 -/

/-- The third bias cast to a row. -/
theorem s13_v41 : W13 m ρ c (Proc.devRef .tc main_v41) = (shapeCast S1x64 (W12 m ρ c (Proc.devRef .tc main_arg8) : S64.Idx → EReal) shapeCasts_S64_S1x64 : S1x64.Idx → EReal) := by
  show StableHlo.after hostOps4 (W12 m ρ c) (Proc.devRef .tc main_v41) = _
  generalize W12 m ρ c = X
  after_results_simp
  first | done | rfl

/-- The third bias as a row. -/
theorem e13_v41 : W13 m ρ c (Proc.devRef .tc main_v41) = shapeCast S1x64 (m ((c : Thread nD τ).loc main_arg8)) shapeCasts_S64_S1x64 := by
  rw [s13_v41, ((W12_of_ne m ρ c main_arg8 (by decide)).trans ((keep11 m ρ c main_arg8 (by decide)).trans ((W10_of_ne m ρ c main_arg8 (by decide)).trans ((keep9 m ρ c main_arg8 (by decide)).trans ((W8_of_ne m ρ c main_arg8 (by decide)).trans ((keep7 m ρ c main_arg8 (by decide)).trans (W6_of_ne m ρ c main_arg8 (by decide)))))))), w5_arg8 m ρ c]

/-- After the fifth launch: the second layer's output, rows scaled, times the last weights. -/
theorem e14 : W14 m ρ c (Proc.devRef .tc main_v42) = proj (dense (agg128 (scaled (dense (agg128 (scaled (m ((c : Thread nD τ).loc main_arg0)) (deg (m ((c : Thread nD τ).loc main_arg1)))) (m ((c : Thread nD τ).loc main_arg1)) (m ((c : Thread nD τ).loc main_arg2))) (m ((c : Thread nD τ).loc main_arg3)) (deg (m ((c : Thread nD τ).loc main_arg2))) (m ((c : Thread nD τ).loc main_arg4))) (deg (m ((c : Thread nD τ).loc main_arg1)))) (m ((c : Thread nD τ).loc main_arg1)) (m ((c : Thread nD τ).loc main_arg2))) (m ((c : Thread nD τ).loc main_arg5)) (deg (m ((c : Thread nD τ).loc main_arg2))) (m ((c : Thread nD τ).loc main_arg6))) (deg (m ((c : Thread nD τ).loc main_arg1))) (m ((c : Thread nD τ).loc main_arg7)) :=
  (W14_arr m ρ c 3).trans ((Proj4.final (V13 m ρ) c (deg (m ((c : Thread nD τ).loc main_arg1))) (((keep13 m ρ c main_v10 (by decide)).trans ((W12_of_ne m ρ c main_v10 (by decide)).trans ((keep11 m ρ c main_v10 (by decide)).trans (((W10_arr m ρ c 1).trans (((dat2 (V9 m ρ) c).arrAt_in 1 rfl _).trans (A_eq2 (V9 m ρ) c 1))).trans ((keep9 m ρ c main_v10 (by decide)).trans ((W8_of_ne m ρ c main_v10 (by decide)).trans ((keep7 m ρ c main_v10 (by decide)).trans ((W6_arr m ρ c 1).trans (((dat0 (V5 m ρ) c).arrAt_in 1 rfl _).trans (A_eq0 (V5 m ρ) c 1)))))))))).trans (w5_v10 m ρ c)) h0 h01).trans
    (congrArg₂ (fun x W => proj x (deg (m ((c : Thread nD τ).loc main_arg1))) W) ((keep13 m ρ c main_v40 (by decide)).trans (e12 m ρ c)) (((keep13 m ρ c main_arg7 (by decide)).trans ((W12_of_ne m ρ c main_arg7 (by decide)).trans ((keep11 m ρ c main_arg7 (by decide)).trans ((W10_of_ne m ρ c main_arg7 (by decide)).trans ((keep9 m ρ c main_arg7 (by decide)).trans ((W8_of_ne m ρ c main_arg7 (by decide)).trans ((keep7 m ρ c main_arg7 (by decide)).trans (W6_of_ne m ρ c main_arg7 (by decide))))))))).trans (w5_arg7 m ρ c))))

/-- The lines after the fifth launch gather and scatter-add what it wrote. -/
theorem s15 : W15 m ρ c (Proc.devRef .tc main_v52) = (agg64 (W14 m ρ c (Proc.devRef .tc main_v42) : S100000x64.Idx → EReal) (W14 m ρ c (Proc.devRef .tc main_arg1) : Ends) (W14 m ρ c (Proc.devRef .tc main_arg2) : Ends)) := by
  show StableHlo.after hostOps5 (W14 m ρ c) (Proc.devRef .tc main_v52) = _
  generalize W14 m ρ c = X
  after_results_simp
  first | done | rfl

/-- The aggregation of the third layer. -/
theorem e15 : W15 m ρ c (Proc.devRef .tc main_v52) = agg64 (proj (dense (agg128 (scaled (dense (agg128 (scaled (m ((c : Thread nD τ).loc main_arg0)) (deg (m ((c : Thread nD τ).loc main_arg1)))) (m ((c : Thread nD τ).loc main_arg1)) (m ((c : Thread nD τ).loc main_arg2))) (m ((c : Thread nD τ).loc main_arg3)) (deg (m ((c : Thread nD τ).loc main_arg2))) (m ((c : Thread nD τ).loc main_arg4))) (deg (m ((c : Thread nD τ).loc main_arg1)))) (m ((c : Thread nD τ).loc main_arg1)) (m ((c : Thread nD τ).loc main_arg2))) (m ((c : Thread nD τ).loc main_arg5)) (deg (m ((c : Thread nD τ).loc main_arg2))) (m ((c : Thread nD τ).loc main_arg6))) (deg (m ((c : Thread nD τ).loc main_arg1))) (m ((c : Thread nD τ).loc main_arg7))) (m ((c : Thread nD τ).loc main_arg1)) (m ((c : Thread nD τ).loc main_arg2)) := by
  rw [s15, e14 m ρ c, ((W14_of_ne m ρ c main_arg1 (by decide)).trans ((keep13 m ρ c main_arg1 (by decide)).trans ((W12_of_ne m ρ c main_arg1 (by decide)).trans ((keep11 m ρ c main_arg1 (by decide)).trans ((W10_of_ne m ρ c main_arg1 (by decide)).trans ((keep9 m ρ c main_arg1 (by decide)).trans ((W8_of_ne m ρ c main_arg1 (by decide)).trans ((keep7 m ρ c main_arg1 (by decide)).trans (W6_of_ne m ρ c main_arg1 (by decide)))))))))), ((W14_of_ne m ρ c main_arg2 (by decide)).trans ((keep13 m ρ c main_arg2 (by decide)).trans ((W12_of_ne m ρ c main_arg2 (by decide)).trans ((keep11 m ρ c main_arg2 (by decide)).trans ((W10_of_ne m ρ c main_arg2 (by decide)).trans ((keep9 m ρ c main_arg2 (by decide)).trans ((W8_of_ne m ρ c main_arg2 (by decide)).trans ((keep7 m ρ c main_arg2 (by decide)).trans (W6_of_ne m ρ c main_arg2 (by decide)))))))))), w5_arg1 m ρ c, w5_arg2 m ρ c]

/-- After the last launch: the program's result, the three layers' function of the nine arguments. -/
theorem e16 : W16 m ρ c (Proc.devRef .tc main_v53) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W16_arr m ρ c 3).trans ((Bias5.final (V15 m ρ) c (deg (m ((c : Thread nD τ).loc main_arg2))) (((keep15 m ρ c main_v12 (by decide)).trans ((W14_of_ne m ρ c main_v12 (by decide)).trans ((keep13 m ρ c main_v12 (by decide)).trans (((W12_arr m ρ c 2).trans (((dat3 (V11 m ρ) c).arrAt_in 2 rfl _).trans (A_eq3 (V11 m ρ) c 2))).trans ((keep11 m ρ c main_v12 (by decide)).trans ((W10_of_ne m ρ c main_v12 (by decide)).trans ((keep9 m ρ c main_v12 (by decide)).trans (((W8_arr m ρ c 2).trans (((dat1 (V7 m ρ) c).arrAt_in 2 rfl _).trans (A_eq1 (V7 m ρ) c 2))).trans ((keep7 m ρ c main_v12 (by decide)).trans (W6_of_ne m ρ c main_v12 (by decide))))))))))).trans (w5_v12 m ρ c)) (m ((c : Thread nD τ).loc main_arg8)) (((keep15 m ρ c main_v41 (by decide)).trans (W14_of_ne m ρ c main_v41 (by decide))).trans (e13_v41 m ρ c)) h0 h01' h1' h2').trans
    (congrArg (fun a => closing a (deg (m ((c : Thread nD τ).loc main_arg2))) (m ((c : Thread nD τ).loc main_arg8))) (e15 m ρ c)))

end Cert.KernelIdeal.Walk

end
-- ==== Proof.Bridge.lean ====
/-
  The reference's result, as its run states it, is the same three layers' function of its nine arguments that the
  kernel program's result buffer ends at: the reference applies, line for line, the degree scales, the row scalings,
  the gathers and scatter-adds, the products with the weights, the biases and the rectifiers in the same order, so its
  composed term is that function's definition written out.
-/
import proofs.«110976_j79817672229553_1_alg».proof.Proof.Terms
import proofs.«110976_j79817672229553_1_alg».proof.Proof.Gen.ReferenceIdeal.Run

noncomputable section

namespace Cert.Bridge

open Idealize.ShloMosaic Idealize.ShloMosaic.TcCoe Idealize.SL.Sem Cert.KernelIdeal.Terms Cert.GraphConv

/-- The two programs print the same scatter, gather and contraction records. -/
theorem sc1 : Cert.ReferenceIdeal.scatter_S100000_S1600000x1_S1600000_n_0_0_1 = Cert.KernelIdeal.scatter_S100000_S1600000x1_S1600000_n_0_0_1 := rfl
theorem sc128 : Cert.ReferenceIdeal.scatter_S100000x128_S1600000x1_S1600000x128_1_0_0_1 = Cert.KernelIdeal.scatter_S100000x128_S1600000x1_S1600000x128_1_0_0_1 := rfl
theorem sc64 : Cert.ReferenceIdeal.scatter_S100000x64_S1600000x1_S1600000x64_1_0_0_1 = Cert.KernelIdeal.scatter_S100000x64_S1600000x1_S1600000x64_1_0_0_1 := rfl
theorem ga128 : Cert.ReferenceIdeal.gather_S100000x128_S1600000x1_S1600000x128_1_0_n_n_0_1_1128 = Cert.KernelIdeal.gather_S100000x128_S1600000x1_S1600000x128_1_0_n_n_0_1_1128 := rfl
theorem ga64 : Cert.ReferenceIdeal.gather_S100000x64_S1600000x1_S1600000x64_1_0_n_n_0_1_164 = Cert.KernelIdeal.gather_S100000x64_S1600000x1_S1600000x64_1_0_n_n_0_1_164 := rfl
theorem dot128 : Cert.ReferenceIdeal.dot_S100000x128_S128x128_S100000x128_1_0_0_1_n_n = DotDims.plain 100000 128 128 := rfl
theorem dot64 : Cert.ReferenceIdeal.dot_S100000x128_S128x64_S100000x64_1_0_0_1_n_n = DotDims.plain 100000 128 64 := rfl

/-- The reference's composed term is the three layers' function of its arguments. -/
theorem ref_eq (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v94 m' c
      = net (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) := by
  unfold Cert.ReferenceIdeal.Value.res_main_v94
  rw [sc1, sc128, sc64, ga128, ga64, dot128, dot64]
  rfl

end Cert.Bridge

end
-- ==== Proof.lean ====
/-
  A three-layer graph convolution, each layer y = D_in^(-1/2) · A · (D_out^(-1/2) · x) · W + b with a rectifier after
  the first two, computed by six tiled launches with the sparse aggregation on the host between them, against the same
  network written with plain array operations.

  At exact (extended real) values the two programs apply the same operations in the same order: the row scaling by the
  out-degree scale, the gather at the sources and scatter-add into the destinations, the product with the weights, the
  row scaling by the in-degree scale, the bias, the rectifier (the last layer multiplies by its weights before it
  aggregates, in both). The tiled program differs only in layout and in grouping: rows are processed in twenty blocks
  of five thousand, the scales travel as columns and the biases as rows, the first two layers' scaling launch adds a
  row of zeros, and the products take operands narrowed to sixteen bits, which at exact values is no change. So each
  launch's output array is, entry by entry, the corresponding stage of the plain network, and the sparse stages between
  them are the same function applied to equal arrays. No law beyond a + 0 = a is used, so finiteness of the inputs is
  never needed.
-/
import proofs.«110976_j79817672229553_1_alg».proof.Defs
import proofs.«110976_j79817672229553_1_alg».proof.Proof.Gen.Kernel
import proofs.«110976_j79817672229553_1_alg».proof.Proof.Gen.Kernel.Frame
import proofs.«110976_j79817672229553_1_alg».proof.Proof.Gen.KernelIdeal
import proofs.«110976_j79817672229553_1_alg».proof.Proof.Gen.KernelIdeal.Frame
import proofs.«110976_j79817672229553_1_alg».proof.Proof.Gen.ReferenceIdeal
import proofs.«110976_j79817672229553_1_alg».proof.Proof.Gen.Pre_finite_inputs
import proofs.«110976_j79817672229553_1_alg».proof.Proof.Gen.ReferenceIdeal.Run
import proofs.«110976_j79817672229553_1_alg».proof.Proof.Result
import proofs.«110976_j79817672229553_1_alg».proof.Proof.Walk
import proofs.«110976_j79817672229553_1_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Gen.frame m ρ

/-- So does the same program with floats read as exact values. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the three layers' function of the arguments in their result buffers. -/
theorem algebraic : Cert.algebraic_KernelIdeal_ReferenceIdeal := by
  intro m ρ m' ρ' _ hagree
  refine ⟨fun c => Cert.KernelIdeal.Terms.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.KernelIdeal.Walk.e16 m ρ c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨g0, g1, g2, g3, g4, g5, g6, g7, g8⟩ := hagree c
    rw [Cert.Bridge.ref_eq, g0, g1, g2, g3, g4, g5, g6, g7, g8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
